-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x512 : Shape := ⟨2, ![256, 512]⟩
abbrev S256x14x14x512 : Shape := ⟨4, ![256, 14, 14, 512]⟩
abbrev S512x512 : Shape := ⟨2, ![512, 512]⟩
abbrev S512 : Shape := ⟨1, ![512]⟩
abbrev S512x1024 : Shape := ⟨2, ![512, 1024]⟩
abbrev S_ : Shape := ⟨0, ![]⟩

class Facts : Prop where
  bcast_S_S256x512 : S_.BroadcastsInDim S256x512 (![] : Fin 0 → Fin S256x512.rank)
  reducesTo_S256x512_S_d0_1 : S256x512.ReducesTo [0, 1] S_
  h_S_ : 0 < S_.numel
  bcast_S_S256x14x14x512 : S_.BroadcastsInDim S256x14x14x512 (![] : Fin 0 → Fin S256x14x14x512.rank)
  reducesTo_S256x14x14x512_S_d0_1_2_3 : S256x14x14x512.ReducesTo [0, 1, 2, 3] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S512x1024 : S_.BroadcastsInDim S512x1024 (![] : Fin 0 → Fin S512x1024.rank)
  reducesTo_S512x1024_S_d0_1 : S512x1024.ReducesTo [0, 1] S_

variable [Facts]

def fn_part3 {F : FTy → Type} [FloatOps F] (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  main_v53

def fn_part2 {F : FTy → Type} [FloatOps F] (main_arg7 : FVec F S512x1024 .f32) (main_arg8 : FVec F S512 .f32) (main_arg9 : FVec F S512x512 .f32) (main_arg10 : FVec F S512 .f32) (main_v33 : IVec S_ 1) : IVec S_ 1 :=
  let main_v34 : FVec F S512x1024 .f32 := Host.absf main_arg7
  let main_cst_12 : FVec F S_ .f32 := constant S_ .f32 0x7F800000#32
  let main_v35 : FVec F S512x1024 .f32 := broadcastInDim S512x1024 ![] bcast_S_S512x1024 main_cst_12
  let main_v36 : IVec S512x1024 1 := cmpf .olt main_v34 main_v35
  let main_c_13 : IVec S_ 1 := constantI S_ 1 1#1
  let main_v37 : IVec S_ 1 := (fun x v => Host.reduce IntOp.andi x v reducesTo_S512x1024_S_d0_1 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512x512 .f32 := Host.absf main_arg9
  let main_cst_16 : FVec F S_ .f32 := constant S_ .f32 0x7F800000#32
  let main_v45 : FVec F S512x512 .f32 := broadcastInDim S512x512 ![] bcast_S_S512x512 main_cst_16
  let main_v46 : IVec S512x512 1 := cmpf .olt main_v44 main_v45
  let main_c_17 : IVec S_ 1 := constantI S_ 1 1#1
  let main_v47 : IVec S_ 1 := (fun x v => Host.reduce IntOp.andi x v reducesTo_S512x512_S_d0_1 h_S_) main_v46 main_c_17
  let main_v48 : IVec S_ 1 := andi main_v43 main_v47
  let main_v49 : FVec F S512 .f32 := Host.absf main_arg10
  let main_cst_18 : FVec F S_ .f32 := constant S_ .f32 0x7F800000#32
  let main_v50 : FVec F S512 .f32 := broadcastInDim S512 ![] bcast_S_S512 main_cst_18
  fn_part3 (F := F) main_v48 main_v49 main_v50

def fn_part1 {F : FTy → Type} [FloatOps F] (main_arg4 : FVec F S512 .f32) (main_arg5 : FVec F S512x512 .f32) (main_arg6 : FVec F S512 .f32) (main_arg7 : FVec F S512x1024 .f32) (main_arg8 : FVec F S512 .f32) (main_arg9 : FVec F S512x512 .f32) (main_arg10 : FVec F S512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x512 .f32 := Host.absf main_arg5
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S256x512 .f32) (main_arg1 : FVec F S256x512 .f32) (main_arg2 : FVec F S256x14x14x512 .f32) (main_arg3 : FVec F S512x512 .f32) (main_arg4 : FVec F S512 .f32) (main_arg5 : FVec F S512x512 .f32) (main_arg6 : FVec F S512 .f32) (main_arg7 : FVec F S512x1024 .f32) (main_arg8 : FVec F S512 .f32) (main_arg9 : FVec F S512x512 .f32) (main_arg10 : FVec F S512 .f32) : IVec S_ 1 :=
  let main_v0 : FVec F S256x512 .f32 := Host.absf main_arg0
  let main_cst : FVec F S_ .f32 := constant S_ .f32 0x7F800000#32
  let main_v1 : FVec F S256x512 .f32 := broadcastInDim S256x512 ![] bcast_S_S256x512 main_cst
  let main_v2 : IVec S256x512 1 := cmpf .olt main_v0 main_v1
  let main_c : IVec S_ 1 := constantI S_ 1 1#1
  let main_v3 : IVec S_ 1 := (fun x v => Host.reduce IntOp.andi x v reducesTo_S256x512_S_d0_1 h_S_) main_v2 main_c
  let main_v4 : FVec F S256x512 .f32 := Host.absf main_arg1
  let main_cst_0 : FVec F S_ .f32 := constant S_ .f32 0x7F800000#32
  let main_v5 : FVec F S256x512 .f32 := broadcastInDim S256x512 ![] bcast_S_S256x512 main_cst_0
  let main_v6 : IVec S256x512 1 := cmpf .olt main_v4 main_v5
  let main_c_1 : IVec S_ 1 := constantI S_ 1 1#1
  let main_v7 : IVec S_ 1 := (fun x v => Host.reduce IntOp.andi x v reducesTo_S256x512_S_d0_1 h_S_) main_v6 main_c_1
  let main_v8 : IVec S_ 1 := andi main_v3 main_v7
  let main_v9 : FVec F S256x14x14x512 .f32 := Host.absf main_arg2
  let main_cst_2 : FVec F S_ .f32 := constant S_ .f32 0x7F800000#32
  let main_v10 : FVec F S256x14x14x512 .f32 := broadcastInDim S256x14x14x512 ![] bcast_S_S256x14x14x512 main_cst_2
  let main_v11 : IVec S256x14x14x512 1 := cmpf .olt main_v9 main_v10
  let main_c_3 : IVec S_ 1 := constantI S_ 1 1#1
  let main_v12 : IVec S_ 1 := (fun x v => Host.reduce IntOp.andi x v reducesTo_S256x14x14x512_S_d0_1_2_3 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_arg5 main_arg6 main_arg7 main_arg8 main_arg9 main_arg10 main_v13 main_v16
-- ==== Kernel.lean ====
abbrev S256x512 : Shape := ⟨2, ![256, 512]⟩
abbrev S256x14x14x512 : Shape := ⟨4, ![256, 14, 14, 512]⟩
abbrev S512x512 : Shape := ⟨2, ![512, 512]⟩
abbrev S512 : Shape := ⟨1, ![512]⟩
abbrev S512x1024 : Shape := ⟨2, ![512, 1024]⟩
abbrev S256x196x512 : Shape := ⟨3, ![256, 196, 512]⟩
abbrev S_ : Shape := ⟨0, ![]⟩
abbrev S256x200x512 : Shape := ⟨3, ![256, 200, 512]⟩
abbrev S32x512 : Shape := ⟨2, ![32, 512]⟩
abbrev S32x40x512 : Shape := ⟨3, ![32, 40, 512]⟩
abbrev S1x512 : Shape := ⟨2, ![1, 512]⟩
abbrev S32x1x512 : Shape := ⟨3, ![32, 1, 512]⟩
abbrev S1x1x512 : Shape := ⟨3, ![1, 1, 512]⟩
abbrev S32x40x1024 : Shape := ⟨3, ![32, 40, 1024]⟩
abbrev S1280x1024 : Shape := ⟨2, ![1280, 1024]⟩
abbrev S1280x512 : Shape := ⟨2, ![1280, 512]⟩
abbrev S32x40 : Shape := ⟨2, ![32, 40]⟩
abbrev S32x40x1 : Shape := ⟨3, ![32, 40, 1]⟩

abbrev nBuf : Space → Nat
  | .hbm => 19
  | .vmem => 16
  | .smem => 0
  | _ => 0

abbrev bufTy : (tb : Table) → Fin (tcTables nBuf tb) → BufTy
  | .hbm, ⟨0, _⟩ => ⟨S256x512, .f32⟩
  | .hbm, ⟨1, _⟩ => ⟨S256x512, .f32⟩
  | .hbm, ⟨2, _⟩ => ⟨S256x14x14x512, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512x1024, .f32⟩
  | .hbm, ⟨8, _⟩ => ⟨S512, .f32⟩
  | .hbm, ⟨9, _⟩ => ⟨S512x512, .f32⟩
  | .hbm, ⟨10, _⟩ => ⟨S512, .f32⟩
  | .hbm, ⟨11, _⟩ => ⟨S256x196x512, .f32⟩
  | .hbm, ⟨12, _⟩ => ⟨S_, .i32⟩
  | .hbm, ⟨13, _⟩ => ⟨S_, .f32⟩
  | .hbm, ⟨14, _⟩ => ⟨S256x200x512, .f32⟩
  | .hbm, ⟨15, _⟩ => ⟨S512x512, .bf16⟩
  | .hbm, ⟨16, _⟩ => ⟨S512x1024, .bf16⟩
  | .hbm, ⟨17, _⟩ => ⟨S512x512, .bf16⟩
  | .hbm, ⟨18, _⟩ => ⟨S256x512, .f32⟩
  | .local _ .vmem, ⟨0, _⟩ => ⟨S32x512, .f32⟩
  | .local _ .vmem, ⟨1, _⟩ => ⟨S32x512, .f32⟩
  | .local _ .vmem, ⟨2, _⟩ => ⟨S32x512, .f32⟩
  | .local _ .vmem, ⟨3, _⟩ => ⟨S32x512, .f32⟩
  | .local _ .vmem, ⟨4, _⟩ => ⟨S32x40x512, .f32⟩
  | .local _ .vmem, ⟨5, _⟩ => ⟨S32x40x512, .f32⟩
  | .local _ .vmem, ⟨6, _⟩ => ⟨S512x512, .bf16⟩
  | .local _ .vmem, ⟨7, _⟩ => ⟨S512, .f32⟩
  | .local _ .vmem, ⟨8, _⟩ => ⟨S512, .f32⟩
  | .local _ .vmem, ⟨9, _⟩ => ⟨S512x1024, .bf16⟩
  | .local _ .vmem, ⟨10, _⟩ => ⟨S512, .f32⟩
  | .local _ .vmem, ⟨11, _⟩ => ⟨S512x512, .bf16⟩
  | .local _ .vmem, ⟨12, _⟩ => ⟨S512, .f32⟩
  | .local _ .vmem, ⟨13, _⟩ => ⟨S32x512, .f32⟩
  | .local _ .vmem, ⟨14, _⟩ => ⟨S32x512, .f32⟩
  | .local _ .vmem, ⟨15, _⟩ => ⟨S32x512, .f32⟩
  | _, _ => ⟨S256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_c : Ref sig .tc := ⟨.hbm, 12, rfl⟩
abbrev main_call0_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨2, ![8, 5], ![false, false]⟩

def k0_cond2 (i : grid0.Coords) : BitVec 1 :=
  let arg1 : BitVec 32 := BitVec.ofNat 32 (i 1).val
  let c4_i32 : BitVec 32 := 4#32
  let v64 : BitVec 1 := Scalar.cmpi .eq arg1 c4_i32
  let v65 : BitVec 32 := Scalar.extui v64
  let c0_i32_27 : BitVec 32 := 0#32
  let v66 : BitVec 1 := Scalar.cmpi .ne v65 c0_i32_27
  v66

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S32x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S32x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S32x40x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S512x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S32x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

class Facts₀ : Prop where
  shapeCasts_S256x14x14x512_S256x196x512 : S256x14x14x512.ShapeCasts S256x196x512
  pads_S256x196x512_S256x200x512_000_040_000 : S256x196x512.Pads (![0, 0, 0] : Fin 3 → Nat) ![0, 4, 0] ![0, 0, 0] S256x200x512
  h_S_ : 0 < S_.numel
  bitsLt_bf16_f32 : FTy.bits .bf16 < FTy.bits .f32
  inb_S32x512_S32x512_0_0 : ∀ a, (![0, 0] : Fin 2 → Nat) a + S32x512.size a ≤ S32x512.size a
  h_S32x512 : 0 < S32x512.numel
  shapeCasts_S32x512_S32x512 : S32x512.ShapeCasts S32x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512_S512_0 : ∀ a, (![0] : Fin 1 → Nat) a + S512.size a ≤ S512.size a
  h_S512 : 0 < S512.numel
  shapeCasts_S512_S1x512 : S512.ShapeCasts S1x512
  broadcasts_S1x512_S32x512 : S1x512.Broadcasts S32x512
  shapeCasts_S32x512_S32x1x512 : S32x512.ShapeCasts S32x1x512
  inb_S32x40x512_S32x40x512_0_0_0 : ∀ a, (![0, 0, 0] : Fin 3 → Nat) a + S32x40x512.size a ≤ S32x40x512.size a
  h_S32x40x512 : 0 < S32x40x512.numel
  shapeCasts_S32x40x512_S32x40x512 : S32x40x512.ShapeCasts S32x40x512
  shapeCasts_S512_S1x1x512 : S512.ShapeCasts S1x1x512
  broadcasts_S1x1x512_S32x40x512 : S1x1x512.Broadcasts S32x40x512
  broadcasts_S32x1x512_S32x40x512 : S32x1x512.Broadcasts S32x40x512
  concatenates_S32x40x512_S32x40x512_S32x40x1024_d2 : Shape.Concatenates [S32x40x512, S32x40x512] S32x40x1024 2
  shapeCasts_S32x40x1024_S1280x1024 : S32x40x1024.ShapeCasts S1280x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  shapeCasts_S1280x512_S32x40x512 : S1280x512.ShapeCasts S32x40x512
  shapeCasts_S32x40x512_S1280x512 : S32x40x512.ShapeCasts S1280x512
  reduces_S32x40x512_S32x40 : S32x40x512.Reduces [2] S32x40
  shapeCasts_S32x40_S32x40x1 : S32x40.ShapeCasts S32x40x1
  broadcasts_S32x40x1_S32x40x512 : S32x40x1.Broadcasts S32x40x512
  reduces_S32x40x512_S32x512 : S32x40x512.Reduces [1] S32x512
  dot_S32x512_S512x512_S32x512_1_1_0_0_n_n_wf : DotDims.WF S32x512 S512x512 S32x512 [1] [1] [0] [0] [] []
  dot_S1280x1024_S512x1024_S1280x512_1_1_0_0_n_n_wf : DotDims.WF S1280x1024 S512x1024 S1280x512 [1] [1] [0] [0] [] []
  dot_S1280x512_S512x512_S1280x512_1_1_0_0_n_n_wf : DotDims.WF S1280x512 S512x512 S1280x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x512.size a ≤ S256x512.size a
  hwx0_0 : ∀ i : grid0.Coords, EltTy.bits .f32 = 32 ∨ (Rect.block (s := S256x512) S32x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x512.size a ≤ S256x512.size a
  hwx0_1 : ∀ i : grid0.Coords, EltTy.bits .f32 = 32 ∨ (Rect.block (s := S256x512) S32x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x40x512.size a ≤ S256x200x512.size a
  hwx0_2 : ∀ i : grid0.Coords, EltTy.bits .f32 = 32 ∨ (Rect.block (s := S256x200x512) S32x40x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .bf16 = 32 ∨ (Rect.block (s := S512x512) S512x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512.size a ≤ S512.size a
  hwx0_4 : ∀ i : grid0.Coords, EltTy.bits .f32 = 32 ∨ (Rect.block (s := S512) S512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512.size a ≤ S512.size a
  hwx0_5 : ∀ i : grid0.Coords, EltTy.bits .f32 = 32 ∨ (Rect.block (s := S512) S512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x1024.size a ≤ S512x1024.size a
  hwx0_6 : ∀ i : grid0.Coords, EltTy.bits .bf16 = 32 ∨ (Rect.block (s := S512x1024) S512x1024.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512.size a ≤ S512.size a
  hwx0_7 : ∀ i : grid0.Coords, EltTy.bits .f32 = 32 ∨ (Rect.block (s := S512) S512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S512x512.size a ≤ S512x512.size a
  hwx0_8 : ∀ i : grid0.Coords, EltTy.bits .bf16 = 32 ∨ (Rect.block (s := S512x512) S512x512.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S512.size a ≤ S512.size a
  hwx0_9 : ∀ i : grid0.Coords, EltTy.bits .f32 = 32 ∨ (Rect.block (s := S512) S512.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S32x512.size a ≤ S256x512.size a
  hwx0_10 : ∀ i : grid0.Coords, EltTy.bits .f32 = 32 ∨ (Rect.block (s := S256x512) S32x512.size (cc0_transform_10 i) (hinb0_10 i)).WholeWords (EltTy.packing .f32)

variable [Facts₀]

def dot_S32x512_S512x512_S32x512_1_1_0_0_n_n : DotDims S32x512 S512x512 S32x512 where
  lhsContracting := [1]
  rhsContracting := [1]
  lhsNonContracting := [0]
  rhsNonContracting := [0]
  lhsBatch := []
  rhsBatch := []
  wf := dot_S32x512_S512x512_S32x512_1_1_0_0_n_n_wf
def dot_S1280x1024_S512x1024_S1280x512_1_1_0_0_n_n : DotDims S1280x1024 S512x1024 S1280x512 where
  lhsContracting := [1]
  rhsContracting := [1]
  lhsNonContracting := [0]
  rhsNonContracting := [0]
  lhsBatch := []
  rhsBatch := []
  wf := dot_S1280x1024_S512x1024_S1280x512_1_1_0_0_n_n_wf
def dot_S1280x512_S512x512_S1280x512_1_1_0_0_n_n : DotDims S1280x512 S512x512 S1280x512 where
  lhsContracting := [1]
  rhsContracting := [1]
  lhsNonContracting := [0]
  rhsNonContracting := [0]
  lhsBatch := []
  rhsBatch := []
  wf := dot_S1280x512_S512x512_S1280x512_1_1_0_0_n_n_wf

abbrev win0_0 : Pipeline.Window sig grid0 :=
  Pipeline.Window.ofSpec (Memref.whole main_arg0) S32x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S32x40x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S512x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v4) S512x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg10) S512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v5) S32x512.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev idle0 : Fin 11 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun i => !(k0_cond2 i == 1#1) | ⟨_ + 11, h⟩ => absurd h (Nat.not_lt.2 (Nat.le_add_left _ _))

class Facts : Prop extends Facts₀ where

variable [Facts]
-- ==== ReferenceIdeal.lean ====
abbrev S256x512 : Shape := ⟨2, ![256, 512]⟩
abbrev S256x14x14x512 : Shape := ⟨4, ![256, 14, 14, 512]⟩
abbrev S512x512 : Shape := ⟨2, ![512, 512]⟩
abbrev S512 : Shape := ⟨1, ![512]⟩
abbrev S512x1024 : Shape := ⟨2, ![512, 1024]⟩
abbrev S1x512 : Shape := ⟨2, ![1, 512]⟩
abbrev S256x1x1x512 : Shape := ⟨4, ![256, 1, 1, 512]⟩
abbrev S1x1x1x512 : Shape := ⟨4, ![1, 1, 1, 512]⟩
abbrev S256x14x14x1024 : Shape := ⟨4, ![256, 14, 14, 1024]⟩
abbrev S_ : Shape := ⟨0, ![]⟩
abbrev S256x14x14 : Shape := ⟨3, ![256, 14, 14]⟩
abbrev S256x14x14x1 : Shape := ⟨4, ![256, 14, 14, 1]⟩

abbrev nBuf : Space → Nat
  | .hbm => 50
  | .vmem => 0
  | .smem => 0
  | _ => 0

abbrev bufTy : (tb : Table) → Fin (tcTables nBuf tb) → BufTy
  | .hbm, ⟨0, _⟩ => ⟨S256x512, .f32⟩
  | .hbm, ⟨1, _⟩ => ⟨S256x512, .f32⟩
  | .hbm, ⟨2, _⟩ => ⟨S256x14x14x512, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512x1024, .f32⟩
  | .hbm, ⟨8, _⟩ => ⟨S512, .f32⟩
  | .hbm, ⟨9, _⟩ => ⟨S512x512, .f32⟩
  | .hbm, ⟨10, _⟩ => ⟨S512, .f32⟩
  | .hbm, ⟨11, _⟩ => ⟨S256x512, .f32⟩
  | .hbm, ⟨12, _⟩ => ⟨S1x512, .f32⟩
  | .hbm, ⟨13, _⟩ => ⟨S256x512, .f32⟩
  | .hbm, ⟨14, _⟩ => ⟨S256x512, .f32⟩
  | .hbm, ⟨15, _⟩ => ⟨S256x1x1x512, .f32⟩
  | .hbm, ⟨16, _⟩ => ⟨S1x1x1x512, .f32⟩
  | .hbm, ⟨17, _⟩ => ⟨S256x14x14x512, .f32⟩
  | .hbm, ⟨18, _⟩ => ⟨S256x14x14x512, .f32⟩
  | .hbm, ⟨19, _⟩ => ⟨S256x14x14x512, .f32⟩
  | .hbm, ⟨20, _⟩ => ⟨S256x14x14x512, .f32⟩
  | .hbm, ⟨21, _⟩ => ⟨S256x14x14x1024, .f32⟩
  | .hbm, ⟨22, _⟩ => ⟨S256x14x14x512, .f32⟩
  | .hbm, ⟨23, _⟩ => ⟨S1x1x1x512, .f32⟩
  | .hbm, ⟨24, _⟩ => ⟨S256x14x14x512, .f32⟩
  | .hbm, ⟨25, _⟩ => ⟨S256x14x14x512, .f32⟩
  | .hbm, ⟨26, _⟩ => ⟨S256x1x1x512, .f32⟩
  | .hbm, ⟨27, _⟩ => ⟨S256x14x14x512, .f32⟩
  | .hbm, ⟨28, _⟩ => ⟨S256x14x14x512, .f32⟩
  | .hbm, ⟨29, _⟩ => ⟨S256x14x14x512, .f32⟩
  | .hbm, ⟨30, _⟩ => ⟨S1x1x1x512, .f32⟩
  | .hbm, ⟨31, _⟩ => ⟨S256x14x14x512, .f32⟩
  | .hbm, ⟨32, _⟩ => ⟨S256x14x14x512, .f32⟩
  | .hbm, ⟨33, _⟩ => ⟨S_, .f32⟩
  | .hbm, ⟨34, _⟩ => ⟨S256x14x14, .f32⟩
  | .hbm, ⟨35, _⟩ => ⟨S_, .f32⟩
  | .hbm, ⟨36, _⟩ => ⟨S256x14x14, .f32⟩
  | .hbm, ⟨37, _⟩ => ⟨S256x14x14, .f32⟩
  | .hbm, ⟨38, _⟩ => ⟨S256x14x14x1, .f32⟩
  | .hbm, ⟨39, _⟩ => ⟨S256x14x14x512, .f32⟩
  | .hbm, ⟨40, _⟩ => ⟨S256x14x14x512, .f32⟩
  | .hbm, ⟨41, _⟩ => ⟨S256x14x14x512, .f32⟩
  | .hbm, ⟨42, _⟩ => ⟨S_, .f32⟩
  | .hbm, ⟨43, _⟩ => ⟨S256x14x14, .f32⟩
  | .hbm, ⟨44, _⟩ => ⟨S256x14x14x1, .f32⟩
  | .hbm, ⟨45, _⟩ => ⟨S256x14x14x512, .f32⟩
  | .hbm, ⟨46, _⟩ => ⟨S256x14x14x512, .f32⟩
  | .hbm, ⟨47, _⟩ => ⟨S256x14x14x512, .f32⟩
  | .hbm, ⟨48, _⟩ => ⟨S_, .f32⟩
  | .hbm, ⟨49, _⟩ => ⟨S256x512, .f32⟩
  | _, _ => ⟨S256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst : Ref sig .tc := ⟨.hbm, 33, rfl⟩
abbrev main_v22 : Ref sig .tc := ⟨.hbm, 34, rfl⟩
abbrev main_cst_0 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_1 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_2 : Ref sig .tc := ⟨.hbm, 48, rfl⟩
abbrev main_v34 : Ref sig .tc := ⟨.hbm, 49, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S256x512_0_1 : S1x512.BroadcastsInDim S256x512 (![0, 1] : Fin 2 → Fin S256x512.rank)
  bcast_S256x512_S256x1x1x512_0_3 : S256x512.BroadcastsInDim S256x1x1x512 (![0, 3] : Fin 2 → Fin S256x1x1x512.rank)
  bcast_S512_S1x1x1x512_3 : S512.BroadcastsInDim S1x1x1x512 (![3] : Fin 1 → Fin S1x1x1x512.rank)
  bcast_S1x1x1x512_S256x14x14x512_0_1_2_3 : S1x1x1x512.BroadcastsInDim S256x14x14x512 (![0, 1, 2, 3] : Fin 4 → Fin S256x14x14x512.rank)
  bcast_S256x1x1x512_S256x14x14x512_0_1_2_3 : S256x1x1x512.BroadcastsInDim S256x14x14x512 (![0, 1, 2, 3] : Fin 4 → Fin S256x14x14x512.rank)
  concatenates_S256x14x14x512_S256x14x14x512_S256x14x14x1024_d3 : Shape.Concatenates [S256x14x14x512, S256x14x14x512] S256x14x14x1024 3
  reducesTo_S256x14x14x512_S256x14x14_d3 : S256x14x14x512.ReducesTo [3] S256x14x14
  h_S_ : 0 < S_.numel
  bcast_S_S256x14x14 : S_.BroadcastsInDim S256x14x14 (![] : Fin 0 → Fin S256x14x14.rank)
  bcast_S256x14x14_S256x14x14x1_0_1_2 : S256x14x14.BroadcastsInDim S256x14x14x1 (![0, 1, 2] : Fin 3 → Fin S256x14x14x1.rank)
  bcast_S256x14x14x1_S256x14x14x512_0_1_2_3 : S256x14x14x1.BroadcastsInDim S256x14x14x512 (![0, 1, 2, 3] : Fin 4 → Fin S256x14x14x512.rank)
  reducesTo_S256x14x14x512_S256x512_d1_2 : S256x14x14x512.ReducesTo [1, 2] S256x512
  dot_S256x512_S512x512_S256x512_1_1_0_0_n_n_wf : DotDims.WF S256x512 S512x512 S256x512 [1] [1] [0] [0] [] []
  dot_S256x14x14x1024_S512x1024_S256x14x14x512_3_1_012_0_n_n_wf : DotDims.WF S256x14x14x1024 S512x1024 S256x14x14x512 [3] [1] [0, 1, 2] [0] [] []
  dot_S256x14x14x512_S512x512_S256x14x14x512_3_1_012_0_n_n_wf : DotDims.WF S256x14x14x512 S512x512 S256x14x14x512 [3] [1] [0, 1, 2] [0] [] []

variable [Facts₀]

def dot_S256x512_S512x512_S256x512_1_1_0_0_n_n : DotDims S256x512 S512x512 S256x512 where
  lhsContracting := [1]
  rhsContracting := [1]
  lhsNonContracting := [0]
  rhsNonContracting := [0]
  lhsBatch := []
  rhsBatch := []
  wf := dot_S256x512_S512x512_S256x512_1_1_0_0_n_n_wf
def dot_S256x14x14x1024_S512x1024_S256x14x14x512_3_1_012_0_n_n : DotDims S256x14x14x1024 S512x1024 S256x14x14x512 where
  lhsContracting := [3]
  rhsContracting := [1]
  lhsNonContracting := [0, 1, 2]
  rhsNonContracting := [0]
  lhsBatch := []
  rhsBatch := []
  wf := dot_S256x14x14x1024_S512x1024_S256x14x14x512_3_1_012_0_n_n_wf
def dot_S256x14x14x512_S512x512_S256x14x14x512_3_1_012_0_n_n : DotDims S256x14x14x512 S512x512 S256x14x14x512 where
  lhsContracting := [3]
  rhsContracting := [1]
  lhsNonContracting := [0, 1, 2]
  rhsNonContracting := [0]
  lhsBatch := []
  rhsBatch := []
  wf := dot_S256x14x14x512_S512x512_S256x14x14x512_3_1_012_0_n_n_wf

class Facts : Prop extends Facts₀ where

variable [Facts]
-- ==== Proof.CaseValues.lean ====
/-
  What one grid point leaves behind. The body keeps a running sum in a scratch block of 32 rows: at the first of a batch
  block's five points it first stores the zero block there; at every point it adds the point's tile sum to what the
  scratch holds; at the last of the five it also copies the scratch into the output block. So in each of the three
  control cases the scratch ends at ONE function (step) of the point's input blocks and of the running sum before the
  point, the zero block standing for that sum at a first point, and in the last case the output block holds the same.
-/
import proofs.«124386_j11630771437685_1_alg».proof.Proof.Gen.KernelIdeal.Frame
import Idealize.ShloMosaic.Lib.Pipeline.Value
import Idealize.ShloMosaic.Lib.Tactic

noncomputable section

namespace Cert.KernelIdeal.CaseValues

open Cert.KernelIdeal Cert.KernelIdeal.Gen
open Idealize.ShloMosaic Idealize.ShloMosaic.TcCoe Idealize.SL.Sem

variable {F : FTy → Type} [FloatOps F]

theorem hz1 : (![0] : Fin 1 → Nat) = fun _ => 0 := funext fun a => by fin_cases a <;> rfl
theorem hz3 : (![0, 0, 0] : Fin 3 → Nat) = fun _ => 0 := funext fun a => by fin_cases a <;> rfl
theorem hz : (![0, 0] : Fin 2 → Nat) = fun _ => 0 := funext fun a => by fin_cases a <;> rfl

/-- The running sum after a point, from the point's ten input blocks and the running sum before it. -/
abbrev step (x0 : Vec F S32x512 .f32) (x1 : Vec F S32x512 .f32) (x2 : Vec F S32x40x512 .f32) (x3 : Vec F S512x512 .bf16) (x4 : Vec F S512 .f32) (x5 : Vec F S512 .f32) (x6 : Vec F S512x1024 .bf16) (x7 : Vec F S512 .f32) (x8 : Vec F S512x512 .bf16) (x9 : Vec F S512 .f32) (acc : Vec F S32x512 .f32) : Vec F S32x512 .f32 :=
  k0_pay1 (k0_pay3 x2) (k0_pay4 x1 x3 x4 x2 x5 x6 x7 x0) x8 x9 acc

/-- A middle point: the scratch, holding acc, ends at step of the blocks and acc. -/
theorem scratch_B (c : Dev nD) (i : grid0.Coords) (arg2 : Memref sig .tc .vmem S32x512 .f32) (harg2 : arg2.IsWhole) (arg3 : Memref sig .tc .vmem S32x512 .f32) (harg3 : arg3.IsWhole) (arg4 : Memref sig .tc .vmem S32x40x512 .f32) (harg4 : arg4.IsWhole) (arg5 : Memref sig .tc .vmem S512x512 .bf16) (harg5 : arg5.IsWhole) (arg6 : Memref sig .tc .vmem S512 .f32) (harg6 : arg6.IsWhole) (arg7 : Memref sig .tc .vmem S512 .f32) (harg7 : arg7.IsWhole) (arg8 : Memref sig .tc .vmem S512x1024 .bf16) (harg8 : arg8.IsWhole) (arg9 : Memref sig .tc .vmem S512 .f32) (harg9 : arg9.IsWhole) (arg10 : Memref sig .tc .vmem S512x512 .bf16) (harg10 : arg10.IsWhole) (arg11 : Memref sig .tc .vmem S512 .f32) (harg11 : arg11.IsWhole) (arg12 : Memref sig .tc .vmem S32x512 .f32) (harg12 : arg12.IsWhole) (arg13 : Memref sig .tc .vmem S32x512 .f32) (harg13 : arg13.IsWhole) (hc0 : ¬cond0_0 i) (hc1 : ¬cond0_1 i) (x0 : Vec F S32x512 .f32) (x1 : Vec F S32x512 .f32) (x2 : Vec F S32x40x512 .f32) (x3 : Vec F S512x512 .bf16) (x4 : Vec F S512 .f32) (x5 : Vec F S512 .f32) (x6 : Vec F S512x1024 .bf16) (x7 : Vec F S512 .f32) (x8 : Vec F S512x512 .bf16) (x9 : Vec F S512 .f32) (xs0 : Vec F S32x512 .f32) :
    sout0_B_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0 = step x0 x1 x2 x3 x4 x5 x6 x7 x8 x9 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg13.read_unread, View.ld_unit_zero (S := S32x512) hz, View.ld_unit_zero (S := S32x40x512) hz3, View.ld_unit_zero (S := S512x512) hz, View.ld_unit_zero (S := S512x1024) hz, View.ld_unit_zero (S := S512) hz1]

/-- A first point: the scratch is zeroed, read back, and ends at step of the blocks and the zero block. -/
theorem scratch_A (c : Dev nD) (i : grid0.Coords) (arg2 : Memref sig .tc .vmem S32x512 .f32) (harg2 : arg2.IsWhole) (arg3 : Memref sig .tc .vmem S32x512 .f32) (harg3 : arg3.IsWhole) (arg4 : Memref sig .tc .vmem S32x40x512 .f32) (harg4 : arg4.IsWhole) (arg5 : Memref sig .tc .vmem S512x512 .bf16) (harg5 : arg5.IsWhole) (arg6 : Memref sig .tc .vmem S512 .f32) (harg6 : arg6.IsWhole) (arg7 : Memref sig .tc .vmem S512 .f32) (harg7 : arg7.IsWhole) (arg8 : Memref sig .tc .vmem S512x1024 .bf16) (harg8 : arg8.IsWhole) (arg9 : Memref sig .tc .vmem S512 .f32) (harg9 : arg9.IsWhole) (arg10 : Memref sig .tc .vmem S512x512 .bf16) (harg10 : arg10.IsWhole) (arg11 : Memref sig .tc .vmem S512 .f32) (harg11 : arg11.IsWhole) (arg12 : Memref sig .tc .vmem S32x512 .f32) (harg12 : arg12.IsWhole) (arg13 : Memref sig .tc .vmem S32x512 .f32) (harg13 : arg13.IsWhole) (hc0 : cond0_0 i) (hc1 : ¬cond0_1 i) (x0 : Vec F S32x512 .f32) (x1 : Vec F S32x512 .f32) (x2 : Vec F S32x40x512 .f32) (x3 : Vec F S512x512 .bf16) (x4 : Vec F S512 .f32) (x5 : Vec F S512 .f32) (x6 : Vec F S512x1024 .bf16) (x7 : Vec F S512 .f32) (x8 : Vec F S512x512 .bf16) (x9 : Vec F S512 .f32) :
    sout0_A_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 = step x0 x1 x2 x3 x4 x5 x6 x7 x8 x9 k0_pay2 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9)]
  unfold kernelRun0_A
  dsimp only
  sl_unfold_words
  rw [View.canon_cons_unit_zero (S := S32x512) hz, View.readCov_unit_zero (S := S32x512) _ hz]
  simp only [View.readAt_eq_ld, harg2.read_unread, harg3.read_unread, harg4.read_unread, harg5.read_unread, harg6.read_unread, harg7.read_unread, harg8.read_unread, harg9.read_unread, harg10.read_unread, harg11.read_unread, View.ld_unit_zero (S := S32x512) hz, View.ld_unit_zero (S := S32x40x512) hz3, View.ld_unit_zero (S := S512x512) hz, View.ld_unit_zero (S := S512x1024) hz, View.ld_unit_zero (S := S512) hz1]

/-- A last point: the scratch ends at step of the blocks and acc, -/
theorem scratch_C (c : Dev nD) (i : grid0.Coords) (arg2 : Memref sig .tc .vmem S32x512 .f32) (harg2 : arg2.IsWhole) (arg3 : Memref sig .tc .vmem S32x512 .f32) (harg3 : arg3.IsWhole) (arg4 : Memref sig .tc .vmem S32x40x512 .f32) (harg4 : arg4.IsWhole) (arg5 : Memref sig .tc .vmem S512x512 .bf16) (harg5 : arg5.IsWhole) (arg6 : Memref sig .tc .vmem S512 .f32) (harg6 : arg6.IsWhole) (arg7 : Memref sig .tc .vmem S512 .f32) (harg7 : arg7.IsWhole) (arg8 : Memref sig .tc .vmem S512x1024 .bf16) (harg8 : arg8.IsWhole) (arg9 : Memref sig .tc .vmem S512 .f32) (harg9 : arg9.IsWhole) (arg10 : Memref sig .tc .vmem S512x512 .bf16) (harg10 : arg10.IsWhole) (arg11 : Memref sig .tc .vmem S512 .f32) (harg11 : arg11.IsWhole) (arg12 : Memref sig .tc .vmem S32x512 .f32) (harg12 : arg12.IsWhole) (arg13 : Memref sig .tc .vmem S32x512 .f32) (harg13 : arg13.IsWhole) (hc0 : ¬cond0_0 i) (hc1 : cond0_1 i) (x0 : Vec F S32x512 .f32) (x1 : Vec F S32x512 .f32) (x2 : Vec F S32x40x512 .f32) (x3 : Vec F S512x512 .bf16) (x4 : Vec F S512 .f32) (x5 : Vec F S512 .f32) (x6 : Vec F S512x1024 .bf16) (x7 : Vec F S512 .f32) (x8 : Vec F S512x512 .bf16) (x9 : Vec F S512 .f32) (xs0 : Vec F S32x512 .f32) :
    sout0_C_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0 = step x0 x1 x2 x3 x4 x5 x6 x7 x8 x9 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg13.read_unread, View.ld_unit_zero (S := S32x512) hz, View.ld_unit_zero (S := S32x40x512) hz3, View.ld_unit_zero (S := S512x512) hz, View.ld_unit_zero (S := S512x1024) hz, View.ld_unit_zero (S := S512) hz1]

/-- and the output block, a copy of the scratch read back, holds the same. -/
theorem out_C (c : Dev nD) (i : grid0.Coords) (arg2 : Memref sig .tc .vmem S32x512 .f32) (harg2 : arg2.IsWhole) (arg3 : Memref sig .tc .vmem S32x512 .f32) (harg3 : arg3.IsWhole) (arg4 : Memref sig .tc .vmem S32x40x512 .f32) (harg4 : arg4.IsWhole) (arg5 : Memref sig .tc .vmem S512x512 .bf16) (harg5 : arg5.IsWhole) (arg6 : Memref sig .tc .vmem S512 .f32) (harg6 : arg6.IsWhole) (arg7 : Memref sig .tc .vmem S512 .f32) (harg7 : arg7.IsWhole) (arg8 : Memref sig .tc .vmem S512x1024 .bf16) (harg8 : arg8.IsWhole) (arg9 : Memref sig .tc .vmem S512 .f32) (harg9 : arg9.IsWhole) (arg10 : Memref sig .tc .vmem S512x512 .bf16) (harg10 : arg10.IsWhole) (arg11 : Memref sig .tc .vmem S512 .f32) (harg11 : arg11.IsWhole) (arg12 : Memref sig .tc .vmem S32x512 .f32) (harg12 : arg12.IsWhole) (arg13 : Memref sig .tc .vmem S32x512 .f32) (harg13 : arg13.IsWhole) (hc0 : ¬cond0_0 i) (hc1 : cond0_1 i) (x0 : Vec F S32x512 .f32) (x1 : Vec F S32x512 .f32) (x2 : Vec F S32x40x512 .f32) (x3 : Vec F S512x512 .bf16) (x4 : Vec F S512 .f32) (x5 : Vec F S512 .f32) (x6 : Vec F S512x1024 .bf16) (x7 : Vec F S512 .f32) (x8 : Vec F S512x512 .bf16) (x9 : Vec F S512 .f32) (xs0 : Vec F S32x512 .f32) :
    out0_C_10 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0 = step x0 x1 x2 x3 x4 x5 x6 x7 x8 x9 xs0 := by
  unfold out0_C_10
  rw [View.read_writes_eq_canon _ _ _ (cover0_C_10 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0)]
  unfold kernelRun0_C
  dsimp only
  sl_unfold_words
  rw [View.canon_unit_zero hz, View.readCov_unit_zero (S := S32x512) _ hz]
  simp only [View.readAt_eq_ld, harg2.read_unread, harg3.read_unread, harg4.read_unread, harg5.read_unread, harg6.read_unread, harg7.read_unread, harg8.read_unread, harg9.read_unread, harg10.read_unread, harg11.read_unread, harg13.read_unread, View.ld_unit_zero (S := S32x512) hz, View.ld_unit_zero (S := S32x40x512) hz3, View.ld_unit_zero (S := S512x512) hz, View.ld_unit_zero (S := S512x1024) hz, View.ld_unit_zero (S := S512) hz1]

end Cert.KernelIdeal.CaseValues

end
-- ==== Proof.PointValues.lean ====
/-
  What the scratch and the output block hold after a grid point, as the step function of the point's input blocks:
  at a first point of a batch block over the zero block, at any other point over what the point before left in the
  scratch; and at a last point the output block is a copy of the scratch.
-/
import proofs.«124386_j11630771437685_1_alg».proof.Proof.CaseValues

noncomputable section

namespace Cert.KernelIdeal.PointValues

open Cert.KernelIdeal Cert.KernelIdeal.Gen Cert.KernelIdeal.CaseValues
open Idealize.ShloMosaic Idealize.ShloMosaic.TcCoe Idealize.SL.Sem

variable {F : FTy → Type} [FloatOps F]
variable (m : (ℓ : Loc nD τ sig) → Buf (Elt F) ℓ)

/-- The step function at point t's input blocks. -/
abbrev stepAt (c : Dev nD) (t : Fin cfg0.N) (acc : Vec F S32x512 .f32) : Vec F S32x512 .f32 :=
  step (iblk m c 0 t) (iblk m c 1 t) (iblk m c 2 t) (iblk m c 3 t) (iblk m c 4 t) (iblk m c 5 t) (iblk m c 6 t) (iblk m c 7 t) (iblk m c 8 t) (iblk m c 9 t) acc

/-- After a first point the scratch holds the step over the zero block. -/
theorem scratch_first (c : Dev nD) (t : Fin cfg0.N) (h0 : t.val % 5 = 0) :
    (outsAt0 m c t.val t.isLt).2 = stepAt m c t k0_pay2 := by
  have h1 : ¬t.val % 5 = 4 := by omega
  rw [outsAt0_A m c t h0 h1]
  dsimp only
  exact scratch_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t)

/-- After any other point the scratch holds the step over what the point before left in it. -/
theorem scratch_next (c : Dev nD) (t : Fin cfg0.N) (h0 : ¬t.val % 5 = 0) :
    (outsAt0 m c t.val t.isLt).2
      = stepAt m c t (outsAt0 m c (t.val - 1) (Nat.lt_of_le_of_lt (Nat.sub_le _ _) t.isLt)).2 := by
  by_cases h1 : t.val % 5 = 4
  · rw [outsAt0_C m c t h0 h1]
    dsimp only
    exact scratch_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) _
  · rw [outsAt0_B m c t h0 h1]
    dsimp only
    exact scratch_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) _

/-- After a last point the output block holds what the scratch holds. -/
theorem out_last (c : Dev nD) (t : Fin cfg0.N) (h1 : t.val % 5 = 4) :
    (outsAt0 m c t.val t.isLt).1 = (outsAt0 m c t.val t.isLt).2 := by
  have h0 : ¬t.val % 5 = 0 := by omega
  rw [outsAt0_C m c t h0 h1]
  dsimp only
  exact (out_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) _).trans
    (scratch_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) _).symm

end Cert.KernelIdeal.PointValues

end
-- ==== Proof.Blocks.lean ====
/-
  The blocks a grid point reads, as entries of the arrays the region finds. Point t of the 8 x 5 grid is batch block
  t / 5 and spatial tile t % 5. The two row inputs c and m are cut into 8 blocks of 32 batch entries and move with
  t / 5 only; the padded positions array [256, 200, 512] is cut into 8 x 5 blocks of 32 entries by 40 positions; the
  three weight matrices and four bias vectors are one block each, the whole array, at every point; the output's block
  is batch block t / 5. The staged positions array is the input's 14 x 14 positions listed as 196 and padded by four
  zero positions; the staged weight matrices are the inputs' with the float format changed.
-/
import proofs.«124386_j11630771437685_1_alg».proof.Proof.Gen.KernelIdeal.Frame
import Idealize.ShloMosaic.Lib.Pipeline.Value
import Idealize.ShloMosaic.Lib.StableHlo.Run
import Idealize.ShloMosaic.Lib.ValueIdx
import Idealize.ShloMosaic.Lib.KernelVsHost
import Idealize.ShloMosaic.Lib.Tactic

noncomputable section

namespace Cert.KernelIdeal.Blocks

open Cert.KernelIdeal Cert.KernelIdeal.Gen
open Idealize.ShloMosaic Idealize.ShloMosaic.TcCoe Idealize.SL.Sem Idealize.ShloMosaic.ValueIdx Idealize.ShloMosaic.StableHlo

variable {F : FTy → Type} [FloatOps F]
variable (m : (ℓ : Loc nD τ sig) → Buf (Elt F) ℓ)

/-- The printed block-index maps, decided once over the 40 points. -/
theorem idx_facts : ∀ t : Fin cfg0.N,
    win0_0.index t (0 : Fin 2) = t.val / 5 ∧ win0_0.index t (1 : Fin 2) = 0
    ∧ win0_1.index t (0 : Fin 2) = t.val / 5 ∧ win0_1.index t (1 : Fin 2) = 0
    ∧ win0_2.index t (0 : Fin 3) = t.val / 5 ∧ win0_2.index t (1 : Fin 3) = t.val % 5 ∧ win0_2.index t (2 : Fin 3) = 0
    ∧ win0_3.index t (0 : Fin 2) = 0 ∧ win0_3.index t (1 : Fin 2) = 0
    ∧ win0_4.index t (0 : Fin 1) = 0
    ∧ win0_5.index t (0 : Fin 1) = 0
    ∧ win0_6.index t (0 : Fin 2) = 0 ∧ win0_6.index t (1 : Fin 2) = 0
    ∧ win0_7.index t (0 : Fin 1) = 0
    ∧ win0_8.index t (0 : Fin 2) = 0 ∧ win0_8.index t (1 : Fin 2) = 0
    ∧ win0_9.index t (0 : Fin 1) = 0
    ∧ win0_10.index t (0 : Fin 2) = t.val / 5 ∧ win0_10.index t (1 : Fin 2) = 0 :=
  (by decide +kernel : ∀ t : Fin grid0.N, _)

/-- Row r of the point's block of c is batch entry 32 (t / 5) + r of c. -/
theorem blk_c (c : Dev nD) (t : Fin cfg0.N) (r : Fin 32) (e : Fin 512) (b : Fin 256) (hb : b.val = 32 * (t.val / 5) + r.val) :
    (iblk m c 0 t : Vec F S32x512 .f32) (ix2 r e) = m ((c : Thread nD τ).loc main_arg0) (ix2 b e) := by
  obtain ⟨e0, e1, -⟩ := idx_facts t
  unfold iblk
  rw [View.read_apply]
  show V m c main_arg0 _ = _
  rw [V_main_arg0]
  refine congrArg _ (funext fun a => Fin.ext ?_)
  match a with
  | ⟨0, _⟩ => show win0_0.index t (0 : Fin 2) * 32 + 1 * r.val = b.val; rw [e0, hb]; omega
  | ⟨1, _⟩ => show win0_0.index t (1 : Fin 2) * 512 + 1 * e.val = e.val; rw [e1]; omega

/-- Row r of the point's block of m is batch entry 32 (t / 5) + r of m. -/
theorem blk_m (c : Dev nD) (t : Fin cfg0.N) (r : Fin 32) (e : Fin 512) (b : Fin 256) (hb : b.val = 32 * (t.val / 5) + r.val) :
    (iblk m c 1 t : Vec F S32x512 .f32) (ix2 r e) = m ((c : Thread nD τ).loc main_arg1) (ix2 b e) := by
  obtain ⟨-, -, e0, e1, -⟩ := idx_facts t
  unfold iblk
  rw [View.read_apply]
  show V m c main_arg1 _ = _
  rw [V_main_arg1]
  refine congrArg _ (funext fun a => Fin.ext ?_)
  match a with
  | ⟨0, _⟩ => show win0_1.index t (0 : Fin 2) * 32 + 1 * r.val = b.val; rw [e0, hb]; omega
  | ⟨1, _⟩ => show win0_1.index t (1 : Fin 2) * 512 + 1 * e.val = e.val; rw [e1]; omega

/-- Entry (r, s) of the point's block of positions is batch entry 32 (t / 5) + r, padded position 40 (t % 5) + s. -/
theorem blk_k (c : Dev nD) (t : Fin cfg0.N) (r : Fin 32) (s : Fin 40) (e : Fin 512) (b : Fin 256) (p : Fin 200)
    (hb : b.val = 32 * (t.val / 5) + r.val) (hp : p.val = 40 * (t.val % 5) + s.val) :
    (iblk m c 2 t : Vec F S32x40x512 .f32) (ix3 r s e) = V m c main_v1 (ix3 b p e) := by
  obtain ⟨-, -, -, -, e0, e1, e2, -⟩ := idx_facts t
  unfold iblk
  rw [View.read_apply]
  show V m c main_v1 _ = _
  refine congrArg _ (funext fun a => Fin.ext ?_)
  match a with
  | ⟨0, _⟩ => show win0_2.index t (0 : Fin 3) * 32 + 1 * r.val = b.val; rw [e0, hb]; omega
  | ⟨1, _⟩ => show win0_2.index t (1 : Fin 3) * 40 + 1 * s.val = p.val; rw [e1, hp]; omega
  | ⟨2, _⟩ => show win0_2.index t (2 : Fin 3) * 512 + 1 * e.val = e.val; rw [e2]; omega

/-- The weight and bias windows hold their whole arrays at every point. -/
theorem blk_Wm (c : Dev nD) (t : Fin cfg0.N) : (iblk m c 3 t : Vec F S512x512 .bf16) = V m c main_v2 := by
  obtain ⟨-, -, -, -, -, -, -, e0, e1, -⟩ := idx_facts t
  funext j
  unfold iblk
  rw [View.read_apply]
  show V m c main_v2 _ = _
  refine congrArg _ (funext fun a => Fin.ext ?_)
  match a with
  | ⟨0, _⟩ => show win0_3.index t (0 : Fin 2) * 512 + 1 * (j 0).val = (j 0).val; rw [e0]; omega
  | ⟨1, _⟩ => show win0_3.index t (1 : Fin 2) * 512 + 1 * (j 1).val = (j 1).val; rw [e1]; omega

theorem blk_bm (c : Dev nD) (t : Fin cfg0.N) : (iblk m c 4 t : Vec F S512 .f32) = m ((c : Thread nD τ).loc main_arg4) := by
  obtain ⟨-, -, -, -, -, -, -, -, -, e0, -⟩ := idx_facts t
  funext j
  unfold iblk
  rw [View.read_apply]
  show V m c main_arg4 _ = _
  rw [V_main_arg4]
  refine congrArg _ (funext fun a => Fin.ext ?_)
  match a with
  | ⟨0, _⟩ => show win0_4.index t (0 : Fin 1) * 512 + 1 * (j 0).val = (j 0).val; rw [e0]; omega

theorem blk_bk (c : Dev nD) (t : Fin cfg0.N) : (iblk m c 5 t : Vec F S512 .f32) = m ((c : Thread nD τ).loc main_arg6) := by
  obtain ⟨-, -, -, -, -, -, -, -, -, -, e0, -⟩ := idx_facts t
  funext j
  unfold iblk
  rw [View.read_apply]
  show V m c main_arg6 _ = _
  rw [V_main_arg6]
  refine congrArg _ (funext fun a => Fin.ext ?_)
  match a with
  | ⟨0, _⟩ => show win0_5.index t (0 : Fin 1) * 512 + 1 * (j 0).val = (j 0).val; rw [e0]; omega

theorem blk_W2 (c : Dev nD) (t : Fin cfg0.N) : (iblk m c 6 t : Vec F S512x1024 .bf16) = V m c main_v3 := by
  obtain ⟨-, -, -, -, -, -, -, -, -, -, -, e0, e1, -⟩ := idx_facts t
  funext j
  unfold iblk
  rw [View.read_apply]
  show V m c main_v3 _ = _
  refine congrArg _ (funext fun a => Fin.ext ?_)
  match a with
  | ⟨0, _⟩ => show win0_6.index t (0 : Fin 2) * 512 + 1 * (j 0).val = (j 0).val; rw [e0]; omega
  | ⟨1, _⟩ => show win0_6.index t (1 : Fin 2) * 1024 + 1 * (j 1).val = (j 1).val; rw [e1]; omega

theorem blk_b1 (c : Dev nD) (t : Fin cfg0.N) : (iblk m c 7 t : Vec F S512 .f32) = m ((c : Thread nD τ).loc main_arg8) := by
  obtain ⟨-, -, -, -, -, -, -, -, -, -, -, -, -, e0, -⟩ := idx_facts t
  funext j
  unfold iblk
  rw [View.read_apply]
  show V m c main_arg8 _ = _
  rw [V_main_arg8]
  refine congrArg _ (funext fun a => Fin.ext ?_)
  match a with
  | ⟨0, _⟩ => show win0_7.index t (0 : Fin 1) * 512 + 1 * (j 0).val = (j 0).val; rw [e0]; omega

theorem blk_Wd (c : Dev nD) (t : Fin cfg0.N) : (iblk m c 8 t : Vec F S512x512 .bf16) = V m c main_v4 := by
  obtain ⟨-, -, -, -, -, -, -, -, -, -, -, -, -, -, e0, e1, -⟩ := idx_facts t
  funext j
  unfold iblk
  rw [View.read_apply]
  show V m c main_v4 _ = _
  refine congrArg _ (funext fun a => Fin.ext ?_)
  match a with
  | ⟨0, _⟩ => show win0_8.index t (0 : Fin 2) * 512 + 1 * (j 0).val = (j 0).val; rw [e0]; omega
  | ⟨1, _⟩ => show win0_8.index t (1 : Fin 2) * 512 + 1 * (j 1).val = (j 1).val; rw [e1]; omega

theorem blk_b2 (c : Dev nD) (t : Fin cfg0.N) : (iblk m c 9 t : Vec F S512 .f32) = m ((c : Thread nD τ).loc main_arg10) := by
  obtain ⟨-, -, -, -, -, -, -, -, -, -, -, -, -, -, -, -, e0, -⟩ := idx_facts t
  funext j
  unfold iblk
  rw [View.read_apply]
  show V m c main_arg10 _ = _
  rw [V_main_arg10]
  refine congrArg _ (funext fun a => Fin.ext ?_)
  match a with
  | ⟨0, _⟩ => show win0_9.index t (0 : Fin 1) * 512 + 1 * (j 0).val = (j 0).val; rw [e0]; omega

/-! ## The arrays the host operations before the region wrote -/

/-- The staged positions array: the input's positions listed and padded. -/
theorem V_padded (c : Dev nD) : (V m c main_v1 : S256x200x512.Idx → Elt F .f32)
    = pad S256x200x512 ![0, 0, 0] ![0, 4, 0] ![0, 0, 0]
        (shapeCast S256x196x512 (m ((c : Thread nD τ).loc main_arg2)) shapeCasts_S256x14x14x512_S256x196x512)
        (sitofp (F := F) .f32 (constantI S_ 32 0#32)) pads_S256x196x512_S256x200x512_000_040_000 h_S_ := by
  dsimp only [Gen.V]
  simp only [Gen.hostOps0, Gen.hostOps0_1, Gen.hostOps0_2, List.flatten_cons, List.flatten_nil, List.append_nil, List.cons_append, List.nil_append]
  after_results
  rfl

/-- The staged weight matrices: the inputs' with the float format changed. -/
theorem V_Wm (c : Dev nD) : (V m c main_v2 : S512x512.Idx → Elt F .bf16)
    = truncf .bf16 (m ((c : Thread nD τ).loc main_arg3)) bitsLt_bf16_f32 := by
  dsimp only [Gen.V]
  simp only [Gen.hostOps0, Gen.hostOps0_1, Gen.hostOps0_2, List.flatten_cons, List.flatten_nil, List.append_nil, List.cons_append, List.nil_append]
  after_results

theorem V_W2 (c : Dev nD) : (V m c main_v3 : S512x1024.Idx → Elt F .bf16)
    = truncf .bf16 (m ((c : Thread nD τ).loc main_arg7)) bitsLt_bf16_f32 := by
  dsimp only [Gen.V]
  simp only [Gen.hostOps0, Gen.hostOps0_1, Gen.hostOps0_2, List.flatten_cons, List.flatten_nil, List.append_nil, List.cons_append, List.nil_append]
  after_results

theorem V_Wd (c : Dev nD) : (V m c main_v4 : S512x512.Idx → Elt F .bf16)
    = truncf .bf16 (m ((c : Thread nD τ).loc main_arg9)) bitsLt_bf16_f32 := by
  dsimp only [Gen.V]
  simp only [Gen.hostOps0, Gen.hostOps0_1, Gen.hostOps0_2, List.flatten_cons, List.flatten_nil, List.append_nil, List.cons_append, List.nil_append]
  after_results

end Cert.KernelIdeal.Blocks

end
-- ==== Proof.StagedRead.lean ====
/-
  The staged arrays read at an index, over the extended reals. The staged positions array holds, at batch entry b and
  listed position 14 h + w, the input's features at (b, h, w); at the four padding positions 196 .. 199 it holds zero.
  A change of float format is the identity on the extended reals, so the staged weight matrices are the inputs'.
-/
import proofs.«124386_j11630771437685_1_alg».proof.Proof.Blocks

noncomputable section

namespace Cert.KernelIdeal.StagedRead

open Cert.KernelIdeal Cert.KernelIdeal.Gen Cert.KernelIdeal.Blocks
open Idealize.ShloMosaic Idealize.ShloMosaic.TcCoe Idealize.SL.Sem Idealize.ShloMosaic.ValueIdx

variable (m : (ℓ : Loc nD τ sig) → Buf (Elt Ideal) ℓ)

/-- The staged positions array, as a family of extended reals. -/
abbrev padded (c : Dev nD) : S256x200x512.Idx → EReal := V m c main_v1

/-- A listed position below 196 holds the input's features at its row and column. -/
theorem padded_inside (c : Dev nD) (b : Fin 256) (p : Fin 200) (h w : Fin 14) (e : Fin 512)
    (hp : p.val = 14 * h.val + w.val) :
    padded m c (ix3 b p e) = m ((c : Thread nD τ).loc main_arg2) (ix4 b h w e) := by
  unfold padded
  have hlt : p.val < 196 := by have := h.isLt; have := w.isLt; omega
  rw [V_padded]
  refine (pad_apply_of_inside _ _ _ _ _ pads_S256x196x512_S256x200x512_000_040_000 h_S_ (ix3 b p e)
    (ix3 b (⟨p.val, hlt⟩ : Fin 196) e) (fun a => ?_)).trans ?_
  · match a with
    | ⟨0, _⟩ => show b.val = 0 + b.val * (0 + 1); omega
    | ⟨1, _⟩ => show p.val = 0 + p.val * (0 + 1); omega
    | ⟨2, _⟩ => show e.val = 0 + e.val * (0 + 1); omega
  · refine shapeCast_apply _ _ _ _ ?_
    show (S256x14x14x512.rowMajor (ix4 b h w e)).val = (S256x196x512.rowMajor (ix3 b (⟨p.val, hlt⟩ : Fin 196) e)).val
    rw [Shape.rowMajor_val_four, Shape.rowMajor_val_three]
    show ((b.val * 14 + h.val) * 14 + w.val) * 512 + e.val = (b.val * 196 + p.val) * 512 + e.val
    omega

/-- A padding position holds zero. -/
theorem padded_outside (c : Dev nD) (b : Fin 256) (p : Fin 200) (e : Fin 512) (hp : 196 ≤ p.val) :
    padded m c (ix3 b p e) = 0 := by
  unfold padded
  rw [V_padded]
  refine (pad_apply_of_not_inside _ _ _ _ _ pads_S256x196x512_S256x200x512_000_040_000 h_S_ (ix3 b p e) (1 : Fin 3) ?_).trans ?_
  · show ¬(0 ≤ p.val ∧ (p.val - 0) % (0 + 1) = 0 ∧ (p.val - 0) / (0 + 1) < 196)
    omega
  · show (((0#32 : BitVec 32).toInt : ℝ) : EReal) = 0
    simp

/-- The staged weight matrices read at an index are the inputs'. -/
theorem Wm_apply (c : Dev nD) (i : S512x512.Idx) : V m c main_v2 i = m ((c : Thread nD τ).loc main_arg3) i :=
  congrFun (V_Wm m c) i
theorem W2_apply (c : Dev nD) (i : S512x1024.Idx) : V m c main_v3 i = m ((c : Thread nD τ).loc main_arg7) i :=
  congrFun (V_W2 m c) i
theorem Wd_apply (c : Dev nD) (i : S512x512.Idx) : V m c main_v4 i = m ((c : Thread nD τ).loc main_arg9) i :=
  congrFun (V_Wd m c) i

end Cert.KernelIdeal.StagedRead

end
-- ==== Proof.RowSpec.lean ====
/-
  The mathematics both programs compute, stated once over plain finite families of extended reals, for ONE spatial
  position of ONE batch entry. With c and m the batch entry's two feature rows, k the position's feature row, and the
  weights W_m (512 x 512), W_2 (512 x 1024), W_d (512 x 512) with their biases:

    g e    = sum_d m d * W_m e d + b_m e                       (the gate, shared by every position of the entry)
    u      = (g * (k + b_k)) followed by k                     (1024 entries)
    v d    = sum_j u j * W_2 d j + b_1 d
    a d    = sum_q (c q * v q) * W_d d q + b_2 d
    p      = softmax of a over its 512 entries, as exp (a - max a) over the sum of those exponentials
    term d = p d * k d.

  The result at (batch entry, d) is the sum of term d over the 14 x 14 positions. Nothing here mentions a program.
-/
import Mathlib
import Idealize.ShloMosaic.PureOps.Ideal

noncomputable section

namespace Cert.RowSpec

open Idealize.ShloMosaic

/-- The float pattern of minus infinity, from which both programs start the running maximum. -/
abbrev negInf : EReal := Ideal.ofBits .f32 0xFF800000#32

/-- The gate: the entry's row m against the rows of W_m, plus the bias. -/
def gate (mRow : Fin 512 → EReal) (Wm : Fin 512 → Fin 512 → EReal) (bm : Fin 512 → EReal) (e : Fin 512) : EReal :=
  (∑ d : Fin 512, mRow d * Wm e d) + bm e

/-- The 1024 joined features of a position: the gated shifted features, then the features themselves. -/
def joined (g kRow bk : Fin 512 → EReal) (j : Fin 1024) : EReal :=
  if h : j.val < 512 then g ⟨j.val, h⟩ * (kRow ⟨j.val, h⟩ + bk ⟨j.val, h⟩) else kRow ⟨j.val - 512, by omega⟩

/-- The first projection, scaled entrywise by the entry's row c. -/
def scaled (cRow : Fin 512 → EReal) (u : Fin 1024 → EReal) (W2 : Fin 512 → Fin 1024 → EReal) (b1 : Fin 512 → EReal)
    (q : Fin 512) : EReal :=
  cRow q * ((∑ j : Fin 1024, u j * W2 q j) + b1 q)

/-- The scores: the second projection plus its bias. -/
def scores (w : Fin 512 → EReal) (Wd : Fin 512 → Fin 512 → EReal) (b2 : Fin 512 → EReal) (d : Fin 512) : EReal :=
  (∑ q : Fin 512, w q * Wd d q) + b2 d

/-- The running maximum of the scores, started from minus infinity, as both programs take it. -/
def top (a : Fin 512 → EReal) : EReal :=
  max negInf ((Finset.univ : Finset (Fin 512)).fold max negInf a)

/-- The softmax weight of entry d. -/
def weight (a : Fin 512 → EReal) (d : Fin 512) : EReal :=
  Ideal.div (Ideal.exp (a d - top a)) (∑ q : Fin 512, Ideal.exp (a q - top a))

/-- The scores of one position, from the entry's rows, the position's row and the weights. -/
def scoresOf (cRow mRow kRow : Fin 512 → EReal) (Wm : Fin 512 → Fin 512 → EReal) (bm bk : Fin 512 → EReal)
    (W2 : Fin 512 → Fin 1024 → EReal) (b1 : Fin 512 → EReal) (Wd : Fin 512 → Fin 512 → EReal) (b2 : Fin 512 → EReal) :
    Fin 512 → EReal :=
  scores (scaled cRow (joined (gate mRow Wm bm) kRow bk) W2 b1) Wd b2

/-- One position's contribution to the result at feature d: its softmax weight times its feature. -/
def term (cRow mRow kRow : Fin 512 → EReal) (Wm : Fin 512 → Fin 512 → EReal) (bm bk : Fin 512 → EReal)
    (W2 : Fin 512 → Fin 1024 → EReal) (b1 : Fin 512 → EReal) (Wd : Fin 512 → Fin 512 → EReal) (b2 : Fin 512 → EReal)
    (d : Fin 512) : EReal :=
  weight (scoresOf cRow mRow kRow Wm bm bk W2 b1 Wd b2) d * kRow d

/-- A position whose features are all zero contributes nothing, whatever its softmax weight: on the extended reals
    every product with zero is zero. -/
theorem term_zero_row (cRow mRow kRow : Fin 512 → EReal) (Wm : Fin 512 → Fin 512 → EReal) (bm bk : Fin 512 → EReal)
    (W2 : Fin 512 → Fin 1024 → EReal) (b1 : Fin 512 → EReal) (Wd : Fin 512 → Fin 512 → EReal) (b2 : Fin 512 → EReal)
    (d : Fin 512) (hk : kRow d = 0) : term cRow mRow kRow Wm bm bk W2 b1 Wd b2 d = 0 := by
  unfold term
  rw [hk, mul_zero]

end Cert.RowSpec

end
-- ==== Proof.LibSums.lean ====
/-
  General lemmas on finite sums, used to compare a sum accumulated tile by tile over zero-padded rows with the plain sum
  over the rows.

  * `coe_sum`: the inclusion of the reals in the extended reals commutes with finite sums.
  * `partialSum`: for a family indexed by `Fin (T * B)`, seen as `T` consecutive tiles of `B` entries, the sum of the
    entries of the first `t` tiles. It starts at `0`, grows by one tile's sum at each step, and ends at the full sum;
    so any accumulator obeying the same recurrence ends at the full sum (`acc_eq_sum`).
  * `sum_pad`: extending a family on `Fin n` by zeros to `Fin N` (`n ≤ N`) does not change its sum.
  Each statement is given for symbolic extents and again for the literal extents 62 * 16384 = 1015808 and
  1000000 ≤ 1015808.
-/
import Mathlib
import Idealize.ShloMosaic.PureOps.Ideal

noncomputable section

namespace Cert.LibSums

open BigOperators

/-! ### Real sums inside the extended reals -/

/-- The inclusion `ℝ → EReal` commutes with a finite sum. -/
theorem coe_sum {ι : Type*} (s : Finset ι) (f : ι → ℝ) :
    ((∑ i ∈ s, f i : ℝ) : EReal) = ∑ i ∈ s, (f i : EReal) := by
  classical
  refine Finset.induction_on s (by simp) ?_
  intro a s ha ih
  rw [Finset.sum_insert ha, Finset.sum_insert ha, EReal.coe_add, ih]

/-- The inclusion `ℝ → EReal` commutes with a sum over a whole finite type. -/
theorem coe_sum_univ {ι : Type*} [Fintype ι] (f : ι → ℝ) :
    ((∑ i, f i : ℝ) : EReal) = ∑ i, (f i : EReal) :=
  coe_sum Finset.univ f

/-! ### A sum accumulated tile by tile -/

section Tiles

variable {M : Type*} [AddCommMonoid M]

/-- Entry `i` of tile `t` lies inside `T` tiles of `B` entries. -/
theorem tile_idx_lt {T B t i : ℕ} (ht : t < T) (hi : i < B) : t * B + i < T * B := by
  have h1 : (t + 1) * B ≤ T * B := Nat.mul_le_mul_right B ht
  have h2 : (t + 1) * B = t * B + B := Nat.succ_mul t B
  omega

/-- The sum of the entries of the first `t` tiles of a family of `T` tiles of `B` entries: the entries whose position is
    below `t * B`. -/
def partialSum {T B : ℕ} (f : Fin (T * B) → M) (t : ℕ) : M :=
  ∑ p : Fin (T * B), if p.val < t * B then f p else 0

/-- No tile, no entry: the partial sum starts at zero. -/
theorem partialSum_zero {T B : ℕ} (f : Fin (T * B) → M) : partialSum f 0 = 0 := by
  unfold partialSum
  refine Finset.sum_eq_zero fun p _ => ?_
  rw [if_neg]
  omega

/-- All `T` tiles hold every entry: the last partial sum is the full sum. -/
theorem partialSum_top {T B : ℕ} (f : Fin (T * B) → M) : partialSum f T = ∑ p, f p := by
  unfold partialSum
  exact Finset.sum_congr rfl fun p _ => if_pos p.isLt

/-- One more tile adds that tile's sum: positions `t * B ≤ p < (t + 1) * B` are exactly `t * B + i` for `i < B`. -/
theorem partialSum_succ {T B : ℕ} (f : Fin (T * B) → M) {t : ℕ} (ht : t < T) :
    partialSum f (t + 1)
      = partialSum f t + ∑ i : Fin B, f ⟨t * B + i.val, tile_idx_lt ht i.isLt⟩ := by
  unfold partialSum
  have hB : (t + 1) * B = t * B + B := Nat.succ_mul t B
  have hsplit : ∀ p : Fin (T * B), (if p.val < (t + 1) * B then f p else 0)
      = (if p.val < t * B then f p else 0)
        + (if t * B ≤ p.val ∧ p.val < (t + 1) * B then f p else 0) := by
    intro p
    by_cases h1 : p.val < t * B
    · have h2 : p.val < (t + 1) * B := by omega
      have h3 : ¬ (t * B ≤ p.val ∧ p.val < (t + 1) * B) := by omega
      rw [if_pos h1, if_pos h2, if_neg h3, add_zero]
    · by_cases h2 : p.val < (t + 1) * B
      · have h3 : t * B ≤ p.val ∧ p.val < (t + 1) * B := ⟨by omega, h2⟩
        rw [if_neg h1, if_pos h2, if_pos h3, zero_add]
      · have h3 : ¬ (t * B ≤ p.val ∧ p.val < (t + 1) * B) := fun h => h2 h.2
        rw [if_neg h1, if_neg h2, if_neg h3, add_zero]
  rw [Finset.sum_congr rfl (fun p _ => hsplit p), Finset.sum_add_distrib]
  congr 1
  rw [← Finset.sum_filter]
  symm
  refine Finset.sum_bij (fun i _ => (⟨t * B + i.val, tile_idx_lt ht i.isLt⟩ : Fin (T * B))) ?_ ?_ ?_ ?_
  · intro i _
    have hi := i.isLt
    simp only [Finset.mem_filter, Finset.mem_univ, true_and]
    constructor <;> omega
  · intro i _ j _ h
    have hv : t * B + i.val = t * B + j.val := congrArg Fin.val h
    exact Fin.ext (by omega)
  · intro p hp
    simp only [Finset.mem_filter, Finset.mem_univ, true_and] at hp
    refine ⟨⟨p.val - t * B, by omega⟩, Finset.mem_univ _, ?_⟩
    apply Fin.ext
    show t * B + (p.val - t * B) = p.val
    omega
  · intro i _
    rfl

/-- An accumulator that starts at zero and gains one tile's sum at each of `T` steps is, after `t ≤ T` steps, the partial
    sum of the first `t` tiles. -/
theorem acc_eq_partialSum {T B : ℕ} (f : Fin (T * B) → M) (acc : ℕ → M) (h0 : acc 0 = 0)
    (hs : ∀ (t : ℕ) (ht : t < T), acc (t + 1) = acc t + ∑ i : Fin B, f ⟨t * B + i.val, tile_idx_lt ht i.isLt⟩) :
    ∀ t, t ≤ T → acc t = partialSum f t := by
  intro t
  induction t with
  | zero => intro _; rw [h0, partialSum_zero]
  | succ t ih =>
    intro ht
    have ht' : t < T := ht
    rw [hs t ht', partialSum_succ f ht', ih (Nat.le_of_lt ht')]

/-- … and after all `T` steps it is the full sum. -/
theorem acc_eq_sum {T B : ℕ} (f : Fin (T * B) → M) (acc : ℕ → M) (h0 : acc 0 = 0)
    (hs : ∀ (t : ℕ) (ht : t < T), acc (t + 1) = acc t + ∑ i : Fin B, f ⟨t * B + i.val, tile_idx_lt ht i.isLt⟩) :
    acc T = ∑ p, f p := by
  rw [acc_eq_partialSum f acc h0 hs T (Nat.le_refl T), partialSum_top]

/-! The same at 62 tiles of 16384 entries, 62 * 16384 = 1015808. -/

/-- Entry `i` of tile `t` lies below 1015808. -/
theorem tile_idx_lt' (t : Fin 62) (i : Fin 16384) : t.val * 16384 + i.val < 1015808 := by
  have ht := t.isLt
  have hi := i.isLt
  omega

/-- The sum of the first `t` tiles of 16384 entries of a family of 1015808 entries. -/
def partialSum62 (f : Fin 1015808 → M) (t : ℕ) : M :=
  ∑ p : Fin 1015808, if p.val < t * 16384 then f p else 0

theorem partialSum62_eq (f : Fin 1015808 → M) (t : ℕ) :
    partialSum62 f t = partialSum (T := 62) (B := 16384) f t := rfl

/-- It starts at zero. -/
theorem partialSum62_zero (f : Fin 1015808 → M) : partialSum62 f 0 = 0 :=
  partialSum_zero (T := 62) (B := 16384) f

/-- Tile `t` adds its 16384 entries. -/
theorem partialSum62_succ (f : Fin 1015808 → M) (t : Fin 62) :
    partialSum62 f (t.val + 1)
      = partialSum62 f t.val + ∑ i : Fin 16384, f ⟨t.val * 16384 + i.val, tile_idx_lt' t i⟩ :=
  partialSum_succ (T := 62) (B := 16384) f t.isLt

/-- After 62 tiles it is the full sum. -/
theorem partialSum62_top (f : Fin 1015808 → M) : partialSum62 f 62 = ∑ p, f p :=
  partialSum_top (T := 62) (B := 16384) f

/-- An accumulator over 62 grid points that starts at zero and gains tile `t`'s sum at point `t` ends at the full sum over
    the 1015808 entries. -/
theorem acc62_eq_sum (f : Fin 1015808 → M) (acc : ℕ → M) (h0 : acc 0 = 0)
    (hs : ∀ t : Fin 62, acc (t.val + 1)
      = acc t.val + ∑ i : Fin 16384, f ⟨t.val * 16384 + i.val, tile_idx_lt' t i⟩) :
    acc 62 = ∑ p, f p :=
  acc_eq_sum (T := 62) (B := 16384) f acc h0 (fun t ht => hs ⟨t, ht⟩)

end Tiles

/-! ### Zero padding -/

section Pad

variable {M : Type*} [AddCommMonoid M]

/-- A family on `Fin n` extended by zeros to `Fin N`, `n ≤ N`, has the same sum. -/
theorem sum_pad {n N : ℕ} (hnN : n ≤ N) (g : Fin n → M) :
    (∑ p : Fin N, (if h : p.val < n then g ⟨p.val, h⟩ else 0)) = ∑ r : Fin n, g r := by
  have h1 : (∑ p : Fin N, (if h : p.val < n then g ⟨p.val, h⟩ else 0))
      = ∑ k ∈ Finset.range N, (if h : k < n then g ⟨k, h⟩ else 0) :=
    Fin.sum_univ_eq_sum_range (fun k => if h : k < n then g ⟨k, h⟩ else 0) N
  have h2 : (∑ r : Fin n, g r) = ∑ k ∈ Finset.range n, (if h : k < n then g ⟨k, h⟩ else 0) := by
    rw [← Fin.sum_univ_eq_sum_range (fun k => if h : k < n then g ⟨k, h⟩ else 0) n]
    exact Finset.sum_congr rfl fun r _ => by rw [dif_pos r.isLt]
  rw [h1, h2]
  symm
  refine Finset.sum_subset (fun k hk => Finset.mem_range.2 (lt_of_lt_of_le (Finset.mem_range.1 hk) hnN)) fun k _ hk => ?_
  have hkn : ¬ k < n := fun hlt => hk (Finset.mem_range.2 hlt)
  exact dif_neg hkn

/-- The same for a family of a position alone, cut off at `n`. -/
theorem sum_pad_nat {n N : ℕ} (hnN : n ≤ N) (g : ℕ → M) :
    (∑ p : Fin N, (if p.val < n then g p.val else 0)) = ∑ r : Fin n, g r.val := by
  rw [← sum_pad hnN (fun r : Fin n => g r.val)]
  exact Finset.sum_congr rfl fun p _ => by
    by_cases h : p.val < n
    · rw [if_pos h, dif_pos h]
    · rw [if_neg h, dif_neg h]

/-- 1,000,000 rows padded by zeros to 1,015,808 have the same sum. -/
theorem sum_pad_rows (g : Fin 1000000 → M) :
    (∑ p : Fin 1015808, (if h : p.val < 1000000 then g ⟨p.val, h⟩ else 0)) = ∑ r : Fin 1000000, g r :=
  sum_pad (by norm_num) g

/-- The same for a table of rows and columns, at a fixed column. -/
theorem sum_pad_rows₂ {κ : Type*} (g : Fin 1000000 → κ → M) (c : κ) :
    (∑ p : Fin 1015808, (if h : p.val < 1000000 then g ⟨p.val, h⟩ c else 0)) = ∑ r : Fin 1000000, g r c :=
  sum_pad_rows (fun r => g r c)

end Pad

end Cert.LibSums

end
-- ==== Proof.PositionSum.lean ====
/-
  The 14 x 14 spatial positions of one batch entry are laid out as one list of 196 positions (position 14 h + w for the
  pair (h, w)) and padded by four more positions, whose contribution is zero, to 200 = 5 x 40: five tiles of forty.
  A family on the 200 padded positions that is the family on the grid at the first 196 and zero after has, as its total,
  the double sum over the grid. Stated for any commutative monoid of values; nothing here mentions a program.
-/
import Mathlib
import proofs.«124386_j11630771437685_1_alg».proof.Proof.LibSums

noncomputable section

namespace Cert.PositionSum

open BigOperators

/-- The pair (h, w) of the grid as position 14 h + w of the list of 196. -/
def gridEquiv : Fin 14 × Fin 14 ≃ Fin 196 := finProdFinEquiv.trans (finCongr (by norm_num))

theorem gridEquiv_val (h w : Fin 14) : (gridEquiv (h, w)).val = w.val + 14 * h.val := rfl

/-- Row and column of a listed position. -/
theorem row_lt {p : ℕ} (hp : p < 196) : p / 14 < 14 := by omega
theorem col_lt (p : ℕ) : p % 14 < 14 := Nat.mod_lt _ (by norm_num)

variable {M : Type*} [AddCommMonoid M]

/-- A sum over the 196 listed positions is the double sum over the grid. -/
theorem sum_list_eq_grid (g : Fin 14 → Fin 14 → M) :
    (∑ r : Fin 196, g ⟨r.val / 14, row_lt r.isLt⟩ ⟨r.val % 14, col_lt r.val⟩) = ∑ h : Fin 14, ∑ w : Fin 14, g h w := by
  rw [← Equiv.sum_comp gridEquiv, Fintype.sum_prod_type]
  refine Finset.sum_congr rfl fun h _ => Finset.sum_congr rfl fun w _ => ?_
  have hv := gridEquiv_val h w
  have hh := h.isLt
  have hw := w.isLt
  congr 1 <;> apply Fin.ext <;> show _ = _ <;> simp only [hv] <;> omega

/-- The total over the 200 padded positions of a family that is the grid's family at the first 196 positions and zero at
    the last four: the double sum over the grid. -/
theorem sum_padded_eq_grid (g : Fin 14 → Fin 14 → M) (f : Fin (5 * 40) → M)
    (hf : ∀ p : Fin (5 * 40), f p = if h : p.val < 196 then g ⟨p.val / 14, row_lt h⟩ ⟨p.val % 14, col_lt p.val⟩ else 0) :
    (∑ p : Fin (5 * 40), f p) = ∑ h : Fin 14, ∑ w : Fin 14, g h w := by
  rw [← sum_list_eq_grid g]
  rw [← Cert.LibSums.sum_pad (n := 196) (N := 5 * 40) (by norm_num)
    (fun r : Fin 196 => g ⟨r.val / 14, row_lt r.isLt⟩ ⟨r.val % 14, col_lt r.val⟩)]
  exact Finset.sum_congr rfl fun p _ => hf p

end Cert.PositionSum

end
-- ==== Proof.Accumulate.lean ====
/-
  The running sum over the grid. Fix a batch entry b = 32 (t / 5) + r and a feature d. Each of the 200 padded positions
  p of b contributes contrib b p d: the softmax weight of the position's scores at d times the position's feature at d.
  One grid point adds the forty contributions of its tile to the running sum, which starts from the zero block at the
  first of the entry's five points; so after the point with tile index j the scratch holds the sum of the first j + 1
  tiles, and after the fifth point all 200 contributions. The four padding positions have zero features and contribute
  nothing, and the 196 others are the 14 x 14 grid listed row by row: the total is the double sum over the grid.
  The law of one tile (what the body's arithmetic adds at a point) is taken as a hypothesis here; it is proved from the
  body's payloads in its own module.
-/
import proofs.«124386_j11630771437685_1_alg».proof.Proof.PointValues
import proofs.«124386_j11630771437685_1_alg».proof.Proof.StagedRead
import proofs.«124386_j11630771437685_1_alg».proof.Proof.RowSpec
import proofs.«124386_j11630771437685_1_alg».proof.Proof.LibSums
import proofs.«124386_j11630771437685_1_alg».proof.Proof.PositionSum
import Idealize.ShloMosaic.PureOps.Ideal.Laws

noncomputable section

namespace Cert.KernelIdeal.Accumulate

open Cert.KernelIdeal Cert.KernelIdeal.Gen Cert.KernelIdeal.CaseValues Cert.KernelIdeal.PointValues
open Cert.KernelIdeal.Blocks Cert.KernelIdeal.StagedRead
open Idealize.ShloMosaic Idealize.ShloMosaic.TcCoe Idealize.SL.Sem Idealize.ShloMosaic.ValueIdx
open scoped BigOperators

/-- The law of one tile: the body's arithmetic adds, at row r and feature d, the forty contributions of the tile's
    positions to the running sum. -/
def TileLaw : Prop :=
  ∀ (cb mb : Vec Ideal S32x512 .f32) (kb : Vec Ideal S32x40x512 .f32) (Wm : Vec Ideal S512x512 .bf16)
    (bm bk : Vec Ideal S512 .f32) (W2 : Vec Ideal S512x1024 .bf16) (b1 : Vec Ideal S512 .f32) (Wd : Vec Ideal S512x512 .bf16)
    (b2 : Vec Ideal S512 .f32) (acc : Vec Ideal S32x512 .f32) (r : Fin 32) (d : Fin 512),
    k0_pay1 (F := Ideal) (k0_pay3 kb) (k0_pay4 mb Wm bm kb bk W2 b1 cb) Wd b2 acc (ix2 r d)
      = acc (ix2 r d) + ∑ s : Fin 40,
          Cert.RowSpec.term (fun e => cb (ix2 r e)) (fun e => mb (ix2 r e)) (fun e => kb (ix3 r s e)) (fun e q => Wm (ix2 e q))
            (fun e => bm (ix1 e)) (fun e => bk (ix1 e)) (fun q j => W2 (ix2 q j)) (fun e => b1 (ix1 e)) (fun q k => Wd (ix2 q k))
            (fun e => b2 (ix1 e)) d

/-- Equal families give equal contributions. -/
theorem term_congr {c c' mr mr' k k' : Fin 512 → EReal} {Wm Wm' : Fin 512 → Fin 512 → EReal} {bm bm' bk bk' : Fin 512 → EReal}
    {W2 W2' : Fin 512 → Fin 1024 → EReal} {b1 b1' : Fin 512 → EReal} {Wd Wd' : Fin 512 → Fin 512 → EReal} {b2 b2' : Fin 512 → EReal}
    (h0 : c = c') (h1 : mr = mr') (h2 : k = k') (h3 : Wm = Wm') (h4 : bm = bm') (h5 : bk = bk') (h6 : W2 = W2') (h7 : b1 = b1')
    (h8 : Wd = Wd') (h9 : b2 = b2') (d : Fin 512) :
    Cert.RowSpec.term c mr k Wm bm bk W2 b1 Wd b2 d = Cert.RowSpec.term c' mr' k' Wm' bm' bk' W2' b1' Wd' b2' d := by
  subst h0 h1 h2 h3 h4 h5 h6 h7 h8 h9; rfl

variable (m : (ℓ : Loc nD τ sig) → Buf (Elt Ideal) ℓ)

/-- The contribution of a position with features kRow of batch entry b at feature d, from the arrays as launched. -/
def contribOf (c : Dev nD) (b : Fin 256) (kRow : Fin 512 → EReal) (d : Fin 512) : EReal :=
  Cert.RowSpec.term (fun e => m ((c : Thread nD τ).loc main_arg0) (ix2 b e)) (fun e => m ((c : Thread nD τ).loc main_arg1) (ix2 b e)) kRow
    (fun e q => m ((c : Thread nD τ).loc main_arg3) (ix2 e q)) (fun e => m ((c : Thread nD τ).loc main_arg4) (ix1 e)) (fun e => m ((c : Thread nD τ).loc main_arg6) (ix1 e))
    (fun q j => m ((c : Thread nD τ).loc main_arg7) (ix2 q j)) (fun e => m ((c : Thread nD τ).loc main_arg8) (ix1 e)) (fun q k => m ((c : Thread nD τ).loc main_arg9) (ix2 q k))
    (fun e => m ((c : Thread nD τ).loc main_arg10) (ix1 e)) d

/-- The contribution of padded position p of batch entry b at feature d. -/
def contrib (c : Dev nD) (b : Fin 256) (p : Fin 200) (d : Fin 512) : EReal :=
  contribOf m c b (fun e => padded m c (ix3 b p e)) d

/-- The contribution of grid position (h, w) of batch entry b at feature d. -/
def gridContrib (c : Dev nD) (b : Fin 256) (h w : Fin 14) (d : Fin 512) : EReal :=
  contribOf m c b (fun e => m ((c : Thread nD τ).loc main_arg2) (ix4 b h w e)) d

/-- A point's step adds its tile's forty contributions. -/
theorem stepAt_apply (htile : TileLaw) (c : Dev nD) (t : Fin cfg0.N) (acc : Vec Ideal S32x512 .f32) (r : Fin 32) (d : Fin 512)
    (b : Fin 256) (hb : b.val = 32 * (t.val / 5) + r.val) :
    stepAt m c t acc (ix2 r d)
      = acc (ix2 r d) + ∑ s : Fin 40, contrib m c b ⟨(t.val % 5) * 40 + s.val, by have := s.isLt; omega⟩ d := by
  refine (htile (iblk m c 0 t) (iblk m c 1 t) (iblk m c 2 t) (iblk m c 3 t) (iblk m c 4 t) (iblk m c 5 t) (iblk m c 6 t)
    (iblk m c 7 t) (iblk m c 8 t) (iblk m c 9 t) acc r d).trans ?_
  refine congrArg (acc (ix2 r d) + ·) (Finset.sum_congr rfl fun s _ => ?_)
  unfold contrib contribOf padded
  exact term_congr (funext fun e => blk_c m c t r e b hb) (funext fun e => blk_m m c t r e b hb)
    (funext fun e => blk_k m c t r s e b ⟨(t.val % 5) * 40 + s.val, by have := s.isLt; omega⟩ hb (by show (t.val % 5) * 40 + s.val = 40 * (t.val % 5) + s.val; omega))
    (funext fun e => funext fun q => (congrFun (blk_Wm m c t) (ix2 e q)).trans (Wm_apply m c _))
    (funext fun e => congrFun (blk_bm m c t) (ix1 e)) (funext fun e => congrFun (blk_bk m c t) (ix1 e))
    (funext fun q => funext fun j => (congrFun (blk_W2 m c t) (ix2 q j)).trans (W2_apply m c _))
    (funext fun e => congrFun (blk_b1 m c t) (ix1 e))
    (funext fun q => funext fun k => (congrFun (blk_Wd m c t) (ix2 q k)).trans (Wd_apply m c _))
    (funext fun e => congrFun (blk_b2 m c t) (ix1 e)) d

/-- The 200 contributions of batch entry b at feature d, as five tiles of forty. -/
def tiles (c : Dev nD) (b : Fin 256) (d : Fin 512) : Fin (5 * 40) → EReal :=
  fun p => contrib m c b ⟨p.val, by have := p.isLt; omega⟩ d

/-- The zero block holds zero. -/
theorem zero_block_apply (i : S32x512.Idx) : (k0_pay2 (F := Ideal)) i = 0 := by
  unfold k0_pay2
  rw [shapeCast_self]
  exact Ideal.ofBits_zero_f32

/-- After the point with tile index j the scratch holds, at row r and feature d, the sum of the first j + 1 tiles. -/
theorem scratch_after (htile : TileLaw) (c : Dev nD) (n : ℕ) :
    ∀ (h : n < cfg0.N) (r : Fin 32) (d : Fin 512) (b : Fin 256), b.val = 32 * (n / 5) + r.val →
      (outsAt0 m c n h).2 (ix2 r d) = Cert.LibSums.partialSum (T := 5) (B := 40) (tiles m c b d) (n % 5 + 1) := by
  induction n using Nat.strong_induction_on with
  | _ n ih =>
    intro h r d b hb
    have hj : n % 5 < 5 := Nat.mod_lt _ (by norm_num)
    rw [Cert.LibSums.partialSum_succ (tiles m c b d) hj]
    by_cases h0 : n % 5 = 0
    · refine ((congrFun (scratch_first m c ⟨n, h⟩ h0) (ix2 r d)).trans (stepAt_apply m htile c ⟨n, h⟩ _ r d b hb)).trans ?_
      refine congrArg₂ (· + ·) ?_ rfl
      rw [h0, Cert.LibSums.partialSum_zero]
      exact zero_block_apply _
    · have hn : n - 1 < n := by omega
      refine ((congrFun (scratch_next m c ⟨n, h⟩ h0) (ix2 r d)).trans (stepAt_apply m htile c ⟨n, h⟩ _ r d b hb)).trans ?_
      refine congrArg₂ (· + ·) ?_ rfl
      refine (ih (n - 1) hn _ r d b (by omega)).trans ?_
      congr 1
      omega

/-- A padded position's contribution is the grid's at a listed position and zero at a padding position. -/
theorem tiles_eq (c : Dev nD) (b : Fin 256) (d : Fin 512) (p : Fin (5 * 40)) :
    tiles m c b d p = if h : p.val < 196 then
        gridContrib m c b ⟨p.val / 14, Cert.PositionSum.row_lt h⟩ ⟨p.val % 14, Cert.PositionSum.col_lt p.val⟩ d else 0 := by
  by_cases h : p.val < 196
  · rw [dif_pos h]
    unfold tiles contrib gridContrib
    refine congrArg (fun k => contribOf m c b k d) (funext fun e => ?_)
    exact padded_inside m c b _ ⟨p.val / 14, Cert.PositionSum.row_lt h⟩ ⟨p.val % 14, Cert.PositionSum.col_lt p.val⟩ e
      (by show p.val = 14 * (p.val / 14) + p.val % 14; omega)
  · rw [dif_neg h]
    unfold tiles contrib contribOf
    exact Cert.RowSpec.term_zero_row _ _ _ _ _ _ _ _ _ _ d (padded_outside m c b _ d (by show 196 ≤ p.val; omega))

/-- After a last point the output block holds, at row r and feature d, the zero the sum started from plus the double sum
    of the grid's contributions. -/
theorem out_apply (htile : TileLaw) (c : Dev nD) (t : Fin cfg0.N) (h1 : t.val % 5 = 4) (r : Fin 32) (d : Fin 512)
    (b : Fin 256) (hb : b.val = 32 * (t.val / 5) + r.val) :
    (outsAt0 m c t.val t.isLt).1 (ix2 r d)
      = Ideal.ofBits .f32 0x00000000#32 + ∑ h : Fin 14, ∑ w : Fin 14, gridContrib m c b h w d := by
  rw [out_last m c t h1, scratch_after m htile c t.val t.isLt r d b hb, h1, Cert.LibSums.partialSum_top,
    Cert.PositionSum.sum_padded_eq_grid (fun h w => gridContrib m c b h w d) (tiles m c b d) (tiles_eq m c b d),
    Ideal.ofBits_zero_f32, zero_add]

end Cert.KernelIdeal.Accumulate

end
-- ==== Proof.FinalArray.lean ====
/-
  The array the kernel leaves in its output, from what its last points leave in the output's block.

  Point t of the 8 x 5 grid works on batch block t / 5 and spatial tile t % 5. The output array [256, 512] is cut into
  8 blocks of 32 batch entries by 512 features; the block of batch block t / 5 is written back once, after the last
  tile of that batch block (t % 5 = 4). Row r of the written block lands at batch entry 32 (t / 5) + r, feature for
  feature. Every batch entry b lies in the block of exactly one writing point, 5 (b / 32) + 4, so the eight
  write-backs tile the array: if each written block agrees, row by row, with one function G of the array's indices,
  the array ends as G.
-/
import proofs.«124386_j11630771437685_1_alg».proof.Proof.Gen.KernelIdeal.Value
import proofs.«124386_j11630771437685_1_alg».proof.Proof.Blocks
import Idealize.ShloMosaic.Lib.Pipeline.Value

noncomputable section

namespace Cert.KernelIdeal.FinalArray

open Cert.KernelIdeal Cert.KernelIdeal.Gen Idealize.ShloMosaic Idealize.ShloMosaic.TcCoe Idealize.SL.Sem
  Idealize.ShloMosaic.ValueIdx
open Idealize.ShloMosaic.Pipeline (Dat)

variable {F : FTy → Type} [FloatOps F]
variable (m : (ℓ : Loc nD τ sig) → Buf (Elt F) ℓ)

/-- The grid has 40 points. -/
theorem points : cfg0.N = 40 := N_0

/-- Entry (r, d) of the output block of point t sits at batch entry 32 (t / 5) + r, feature d, of the array. -/
theorem block_entry (t : Fin cfg0.N) (r : Fin 32) (d : Fin 512) (b : Fin 256) (hb : b.val = 32 * (t.val / 5) + r.val) :
    ((cfg0.win 10).blk t).view.emb (ix2 r d) = ix2 b d := by
  have e := Blocks.idx_facts t
  have e0 : win0_10.index t (0 : Fin 2) = t.val / 5 := e.2.2.2.2.2.2.2.2.2.2.2.2.2.2.2.2.2.1
  have e1 : win0_10.index t (1 : Fin 2) = 0 := e.2.2.2.2.2.2.2.2.2.2.2.2.2.2.2.2.2.2
  funext a
  apply Fin.ext
  match a with
  | ⟨0, _⟩ => show win0_10.index t (0 : Fin 2) * 32 + 1 * r.val = b.val; rw [e0, hb]; omega
  | ⟨1, _⟩ => show win0_10.index t (1 : Fin 2) * 512 + 1 * d.val = d.val; rw [e1]; omega

/-- What a writing point writes back is its block of G, as soon as the block it holds agrees with G row by row. -/
theorem flushed_eq (c : Dev nD) (G : S256x512.Idx → Elt F .f32)
    (hout : ∀ t : Fin cfg0.N, t.val % 5 = 4 → ∀ (r : Fin 32) (d : Fin 512) (b : Fin 256), b.val = 32 * (t.val / 5) + r.val →
      (outsAt0 m c t.val t.isLt).1 (ix2 r d) = G (ix2 b d))
    (t : Fin cfg0.N) (hf : (cfg0.win 10).flush t = true) :
    (dats m 0 c).flushed 10 t = ((cfg0.win 10).blk t).view.read (Elt F) G := by
  have h4 : t.val % 5 = 4 := (flush0_10 t).mp hf
  have hN : cfg0.N = 40 := points
  have ht : t.val < 40 := by have := t.isLt; omega
  rw [Value.flushed10]
  funext j
  rw [View.read_apply]
  obtain ⟨r, d, rfl⟩ : ∃ (r : Fin 32) (d : Fin 512), j = ix2 r d := ⟨j 0, j 1, eq_ix2 j⟩
  have hb : 32 * (t.val / 5) + r.val < 256 := by have := r.isLt; omega
  show (outsAt0 m c t.val t.isLt).1 (ix2 r d) = G (((cfg0.win 10).blk t).view.emb (ix2 r d))
  rw [block_entry t r d ⟨32 * (t.val / 5) + r.val, hb⟩ rfl]
  exact hout t h4 r d ⟨32 * (t.val / 5) + r.val, hb⟩ rfl

/-- Every index of the array lies in the block of a writing point: batch entry b in that of point 5 (b / 32) + 4. -/
theorem covered (i : S256x512.Idx) :
    ∃ t : Fin cfg0.N, (cfg0.win 10).flush t = true ∧ i ∈ ((cfg0.win 10).blk t).view.set := by
  have hN : cfg0.N = 40 := points
  have hi0 : (i 0).val < 256 := (i 0).isLt
  have hi1 : (i 1).val < 512 := (i 1).isLt
  obtain ⟨t, ht⟩ : ∃ t : Fin cfg0.N, t.val = 5 * ((i 0).val / 32) + 4 := ⟨⟨5 * ((i 0).val / 32) + 4, by omega⟩, rfl⟩
  have e := Blocks.idx_facts t
  have e0 : win0_10.index t (0 : Fin 2) = t.val / 5 := e.2.2.2.2.2.2.2.2.2.2.2.2.2.2.2.2.2.1
  have e1 : win0_10.index t (1 : Fin 2) = 0 := e.2.2.2.2.2.2.2.2.2.2.2.2.2.2.2.2.2.2
  refine ⟨t, (flush0_10 t).mpr (by omega), ?_⟩
  show i ∈ ((View.whole main_v5).slice (win0_10.rect t)).set
  rw [View.set_slice_whole, Rect.mem_set_unit]
  intro a
  match a with
  | ⟨0, _⟩ =>
    show win0_10.index t (0 : Fin 2) * 32 ≤ (i 0).val ∧ (i 0).val < win0_10.index t (0 : Fin 2) * 32 + 32
    rw [e0]; omega
  | ⟨1, _⟩ =>
    show win0_10.index t (1 : Fin 2) * 512 ≤ (i 1).val ∧ (i 1).val < win0_10.index t (1 : Fin 2) * 512 + 512
    rw [e1]; omega

/-- The output array after the run is any function G that the block held at every last tile's point restricts to. -/
theorem final_array (c : Dev nD) (G : S256x512.Idx → Elt F .f32)
    (hout : ∀ t : Fin cfg0.N, t.val % 5 = 4 → ∀ (r : Fin 32) (d : Fin 512) (b : Fin 256), b.val = 32 * (t.val / 5) + r.val →
      (outsAt0 m c t.val t.isLt).1 (ix2 r d) = G (ix2 b d)) :
    (dats m 0 c).arrAt 10 cfg0.N = G :=
  (dats m 0 c).arrAt_eq_of_cover 10 G (fun t hf => flushed_eq m c G hout t hf) covered

end Cert.KernelIdeal.FinalArray

end
-- ==== Proof.LibRowsDot.lean ====
/-
  A matrix product whose dimension numbers contract the LAST axis of BOTH operands, with no batch axis — rows of the left
  operand against rows of the right one, x · wᵀ for x : [M, K] and w : [N, K] — read at an index. For such a record the left
  operand is read at (row, k) and the right at (column, k), so at the extended reals a product into the zero accumulator is
  the sum over k of x(row, k) · w(column, k), in any order and grouping (addition of extended reals is commutative and
  associative). Nothing here depends on a program: the record's coordinate facts are hypotheses, which each use site proves
  from its own record by unfolding.
-/
import Idealize.ShloMosaic.Lib.ValueIdx
import Idealize.ShloMosaic.PureOps.Ideal.Laws

noncomputable section

open scoped BigOperators

namespace RowsDot

open Idealize.ShloMosaic Idealize.ShloMosaic.ValueIdx

/-- The dimension numbers `D` are those of a rows-against-rows [M, K] × [N, K] product: one contracted axis of extent K;
    the left operand read at (row of the result, contraction position) and the right at (column of the result,
    contraction position). -/
structure IsRowsByRows {M K N : Nat} (D : DotDims ⟨2, ![M, K]⟩ ⟨2, ![N, K]⟩ ⟨2, ![M, N]⟩) : Prop where
  rank : D.contr.rank = 1
  size : D.contr.size ⟨0, by omega⟩ = K
  lhs0 : ∀ (i : (⟨2, ![M, N]⟩ : Shape).Idx) (q : D.contr.Idx), (D.lhsIdx i q 0).val = (i 0).val
  lhs1 : ∀ (i : (⟨2, ![M, N]⟩ : Shape).Idx) (q : D.contr.Idx), (D.lhsIdx i q 1).val = (q ⟨0, by omega⟩).val
  rhs0 : ∀ (i : (⟨2, ![M, N]⟩ : Shape).Idx) (q : D.contr.Idx), (D.rhsIdx i q 0).val = (i 1).val
  rhs1 : ∀ (i : (⟨2, ![M, N]⟩ : Shape).Idx) (q : D.contr.Idx), (D.rhsIdx i q 1).val = (q ⟨0, by omega⟩).val

variable {M K N : Nat} {φ₁ φ₂ : FTy}

/-- The left operand's index at result index (r, j) and contraction position k is (r, k). -/
theorem IsRowsByRows.lhsIdx_eq {D : DotDims ⟨2, ![M, K]⟩ ⟨2, ![N, K]⟩ ⟨2, ![M, N]⟩} (h : IsRowsByRows D) (r : Fin M) (j : Fin N) (k : Fin K) :
    D.lhsIdx (ix2 r j) ((contrEquiv1 D K h.rank h.size).symm k) = ix2 r k :=
  funext fun a => Fin.ext (by
    match a with
    | ⟨0, _⟩ => exact h.lhs0 _ _
    | ⟨1, _⟩ => exact (h.lhs1 _ _).trans (contrEquiv1_symm_val D K h.rank h.size k))

/-- The right operand's index at result index (r, j) and contraction position k is (j, k). -/
theorem IsRowsByRows.rhsIdx_eq {D : DotDims ⟨2, ![M, K]⟩ ⟨2, ![N, K]⟩ ⟨2, ![M, N]⟩} (h : IsRowsByRows D) (r : Fin M) (j : Fin N) (k : Fin K) :
    D.rhsIdx (ix2 r j) ((contrEquiv1 D K h.rank h.size).symm k) = ix2 j k :=
  funext fun a => Fin.ext (by
    match a with
    | ⟨0, _⟩ => exact h.rhs0 _ _
    | ⟨1, _⟩ => exact (h.rhs1 _ _).trans (contrEquiv1_symm_val D K h.rank h.size k))

/-- A rows-against-rows product into the zero accumulator, at the extended reals, read at (r, j): the sum over the
    contracted axis of x(r, k) · w(j, k). -/
theorem matmul_zero_apply (D : DotDims ⟨2, ![M, K]⟩ ⟨2, ![N, K]⟩ ⟨2, ![M, N]⟩) (h : IsRowsByRows D) (prec : Option ContractPrecision)
    (x : FVec Ideal ⟨2, ![M, K]⟩ φ₁) (w : FVec Ideal ⟨2, ![N, K]⟩ φ₂) (r : Fin M) (j : Fin N) :
    FloatOps.matmul D prec x w (constant (F := Ideal) ⟨2, ![M, N]⟩ .f32 0x00000000#32) (ix2 r j)
      = ∑ k : Fin K, x (ix2 r k) * w (ix2 j k) := by
  rw [Ideal.matmul_constant_zero_apply, ← Equiv.sum_comp (contrEquiv1 D K h.rank h.size).symm]
  refine Finset.sum_congr rfl fun k _ => ?_
  rw [h.lhsIdx_eq r j k, h.rhsIdx_eq r j k]

end RowsDot

end
-- ==== Proof.LibRank3Layout.lean ====
/-
  A general lemma file: layout facts for rank-3 vectors read at an index. A vector with a unit axis spread along that axis
  reads its one entry there; a shorter vector recast with unit axes in front, behind or in the middle reads the entry with
  the same row-major position; a matrix [N, c] with N = a·b recast as [a, b, c] (and back) reads row p·b + q at (p, q);
  and a sum along the last axis, at the extended reals, is the sum over that axis's positions. General over the extents.
-/
import Idealize.ShloMosaic.Lib.Pipeline.Value
import Idealize.ShloMosaic.Lib.ValueIdx
import Idealize.ShloMosaic.PureOps.Ideal.Laws

namespace Idealize.ShloMosaic.Rank3Layout

open Idealize.ShloMosaic Idealize.ShloMosaic.ValueIdx

variable {α : Type}

/-- `[a, 1, c]` spread over `b` middle positions reads, at `(p, q, r)`, entry `(p, 0, r)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (r : Fin c) :
    broadcastTo ⟨3, ![a, b, c]⟩ v h (ix3 p q r) = v (ix3 p (0 : Fin 1) r) := by
  refine broadcastTo_apply v h (ix3 p q r) (ix3 p (0 : Fin 1) r) fun ax => ?_
  match ax with
  | ⟨0, _⟩ =>
    show p.val = if a = 1 then 0 else p.val
    split
    · have := p.isLt; omega
    · rfl
  | ⟨1, _⟩ => rfl
  | ⟨2, _⟩ =>
    show r.val = if c = 1 then 0 else r.val
    split
    · have := r.isLt; omega
    · rfl

/-- `[1, b, c]` spread over `a` leading positions reads, at `(p, q, r)`, entry `(0, q, r)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (r : Fin c) :
    broadcastTo ⟨3, ![a, b, c]⟩ v h (ix3 p q r) = v (ix3 (0 : Fin 1) q r) := by
  refine broadcastTo_apply v h (ix3 p q r) (ix3 (0 : Fin 1) q r) fun ax => ?_
  match ax with
  | ⟨0, _⟩ => rfl
  | ⟨1, _⟩ =>
    show q.val = if b = 1 then 0 else q.val
    split
    · have := q.isLt; omega
    · rfl
  | ⟨2, _⟩ =>
    show r.val = if c = 1 then 0 else r.val
    split
    · have := r.isLt; omega
    · rfl

/-- `[1, 1, c]` spread over `a · b` leading positions reads, at `(p, q, r)`, entry `(0, 0, r)`. -/
theorem broadcastTo_11c_abc_apply {a b c : ℕ} (v : (⟨3, ![1, 1, c]⟩ : Shape).Idx → α)
    (h : (⟨3, ![1, 1, c]⟩ : Shape).Broadcasts ⟨3, ![a, b, c]⟩) (p : Fin a) (q : Fin b) (r : Fin c) :
    broadcastTo ⟨3, ![a, b, c]⟩ v h (ix3 p q r) = v (ix3 (0 : Fin 1) (0 : Fin 1) r) := by
  refine broadcastTo_apply v h (ix3 p q r) (ix3 (0 : Fin 1) (0 : Fin 1) r) fun ax => ?_
  match ax with
  | ⟨0, _⟩ => rfl
  | ⟨1, _⟩ => rfl
  | ⟨2, _⟩ =>
    show r.val = if c = 1 then 0 else r.val
    split
    · have := r.isLt; omega
    · rfl

/-- `[a, b, 1]` spread over `c` lanes reads, at `(p, q, r)`, entry `(p, q, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (r : Fin c) :
    broadcastTo ⟨3, ![a, b, c]⟩ v h (ix3 p q r) = v (ix3 p q (0 : Fin 1)) := by
  refine broadcastTo_apply v h (ix3 p q r) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- A vector `[c]` recast as `[1, 1, c]` reads, at `(u, u', r)`, entry `r`. -/
theorem shapeCast_c_11c_apply {c : ℕ} (x : (⟨1, ![c]⟩ : Shape).Idx → α) (h : (⟨1, ![c]⟩ : Shape).ShapeCasts ⟨3, ![1, 1, c]⟩)
    (u u' : Fin 1) (r : Fin c) : shapeCast ⟨3, ![1, 1, c]⟩ x h (ix3 u u' r) = x (ix1 r) :=
  shapeCast_apply x h _ _ (by
    have hu : u.val = 0 := by omega
    have hu' : u'.val = 0 := by omega
    rw [Shape.rowMajor_val_three, Shape.rowMajor_val_one]
    show r.val = (u.val * 1 + u'.val) * c + r.val
    rw [hu, hu']; simp)

/-- A matrix `[a, b]` recast as `[a, b, 1]` reads, at `(p, q, u)`, entry `(p, q)`. -/
theorem shapeCast_ab_ab1_apply {a b : ℕ} (x : (⟨2, ![a, b]⟩ : Shape).Idx → α) (h : (⟨2, ![a, b]⟩ : Shape).ShapeCasts ⟨3, ![a, b, 1]⟩)
    (p : Fin a) (q : Fin b) (u : Fin 1) : shapeCast ⟨3, ![a, b, 1]⟩ x h (ix3 p q u) = x (ix2 p q) :=
  shapeCast_apply x h _ _ (by
    have hu : u.val = 0 := by omega
    rw [Shape.rowMajor_val_three, Shape.rowMajor_val_two]
    show p.val * b + q.val = (p.val * b + q.val) * 1 + u.val
    rw [hu]; simp)

/-- `[a, b, c]` recast as the matrix `[N, c]` of its `N = a · b` rows reads, at row `p · b + q`, entry `(p, q, ·)`. -/
theorem shapeCast_abc_Nc_apply {a b c N : ℕ} (x : (⟨3, ![a, b, c]⟩ : Shape).Idx → α) (h : (⟨3, ![a, b, c]⟩ : Shape).ShapeCasts ⟨2, ![N, c]⟩)
    (p : Fin a) (q : Fin b) (r : Fin c) (n : Fin N) (hn : n.val = p.val * b + q.val) :
    shapeCast ⟨2, ![N, c]⟩ x h (ix2 n r) = x (ix3 p q r) :=
  shapeCast_apply x h _ _ (by
    rw [Shape.rowMajor_val_three, Shape.rowMajor_val_two]
    show (p.val * b + q.val) * c + r.val = n.val * c + r.val
    rw [hn])

/-- The matrix `[N, c]` recast as `[a, b, c]` with `N = a · b` reads, at `(p, q, ·)`, row `p · b + q`. -/
theorem shapeCast_Nc_abc_apply {a b c N : ℕ} (x : (⟨2, ![N, c]⟩ : Shape).Idx → α) (h : (⟨2, ![N, c]⟩ : Shape).ShapeCasts ⟨3, ![a, b, c]⟩)
    (p : Fin a) (q : Fin b) (r : Fin c) (n : Fin N) (hn : n.val = p.val * b + q.val) :
    shapeCast ⟨3, ![a, b, c]⟩ x h (ix3 p q r) = x (ix2 n r) :=
  shapeCast_apply x h _ _ (by
    rw [Shape.rowMajor_val_three, Shape.rowMajor_val_two]
    show n.val * c + r.val = (p.val * b + q.val) * c + r.val
    rw [hn])

/-- A sum along the lanes of a matrix, at the extended reals, read at row `p`: the sum of the row's entries. -/
theorem laneSum2_apply {a b : ℕ} (src : FVec Ideal ⟨2, ![a, b]⟩ .f32) (h : (⟨2, ![a, b]⟩ : Shape).Reduces [(1 : Fin 2)] ⟨1, ![a]⟩)
    (hφ : FKind.Formats .f32) (hacc : (0x00000000#32 : BitVec 32) = FKind.add.neutral .f32 hφ) (p : Fin a) :
    multiReduction .add [(1 : Fin 2)] ⟨1, ![a]⟩ src 0x00000000#32 h hφ hacc (ix1 p) = ∑ k : Fin b, src (ix2 p k) := by
  refine (Ideal.multiReduction_add_single src 0x00000000#32 h hφ hacc (ix1 p)).trans ?_
  refine Finset.sum_congr rfl fun k _ => congrArg src (funext fun d => Fin.ext ?_)
  rw [Shape.Reduces.lift_val]
  match d with
  | ⟨0, _⟩ => rfl
  | ⟨1, _⟩ => rfl

/-- A sum along the last axis of a rank-3 vector, at the extended reals, read at `(p, q)`: the sum of that fibre's entries. -/
theorem laneSum3_apply {a b c : ℕ} (src : FVec Ideal ⟨3, ![a, b, c]⟩ .f32) (h : (⟨3, ![a, b, c]⟩ : Shape).Reduces [(2 : Fin 3)] ⟨2, ![a, b]⟩)
    (hφ : FKind.Formats .f32) (hacc : (0x00000000#32 : BitVec 32) = FKind.add.neutral .f32 hφ) (p : Fin a) (q : Fin b) :
    multiReduction .add [(2 : Fin 3)] ⟨2, ![a, b]⟩ src 0x00000000#32 h hφ hacc (ix2 p q) = ∑ k : Fin c, src (ix3 p q k) := by
  refine (Ideal.multiReduction_add_single src 0x00000000#32 h hφ hacc (ix2 p q)).trans ?_
  refine Finset.sum_congr rfl fun k _ => congrArg src (funext fun d => Fin.ext ?_)
  rw [Shape.Reduces.lift_val]
  match d with
  | ⟨0, _⟩ => rfl
  | ⟨1, _⟩ => rfl
  | ⟨2, _⟩ => rfl

end Idealize.ShloMosaic.Rank3Layout
-- ==== Proof.LibMiddleUnit.lean ====
/-
  A matrix [a, b] recast with a unit axis in the middle, [a, 1, b], read at an index: entry (i, 0, j) of the result is
  entry (i, j) of the matrix (both are position i·b + j in row-major order). General over the extents.
-/
import Idealize.ShloMosaic.Lib.Pipeline.Value
import Idealize.ShloMosaic.Lib.ValueIdx

namespace Idealize.ShloMosaic.MiddleUnit

open Idealize.ShloMosaic Idealize.ShloMosaic.ValueIdx

variable {α : Type}

/-- A matrix `[a, b]` recast as `[a, 1, b]` reads, at `(i, u, j)`, the matrix at `(i, j)`, whatever the unit coordinate `u`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

end Idealize.ShloMosaic.MiddleUnit
-- ==== Proof.TileRead.lean ====
/-
  The kernel body's arithmetic read at an index. One grid step holds 32 batch entries and a block of 40 spatial positions;
  its body adds to the accumulator, at (entry r, feature d), the sum over the block's positions s of the softmax weight of
  the position's scores at d times the position's feature d. Each intermediate vector of the body is named here and read
  at explicit coordinates as the corresponding row-wise quantity of the specification: the gate, the joined features, the
  scaled first projection, the scores, and the softmax-weighted term.
-/
import proofs.«124386_j11630771437685_1_alg».proof.Proof.Gen.KernelIdeal.Skeleton
import proofs.«124386_j11630771437685_1_alg».proof.Proof.RowSpec
import proofs.«124386_j11630771437685_1_alg».proof.Proof.LibRowsDot
import proofs.«124386_j11630771437685_1_alg».proof.Proof.LibRank3Layout
import proofs.«124386_j11630771437685_1_alg».proof.Proof.LibMiddleUnit
import Idealize.ShloMosaic.Lib.ValueIdx
import Idealize.ShloMosaic.Lib.Pipeline.Value
import Idealize.ShloMosaic.PureOps.Ideal.Laws

noncomputable section

open scoped BigOperators

namespace Cert.TileRead

open Idealize.ShloMosaic Idealize.ShloMosaic.ValueIdx Cert.KernelIdeal Cert.KernelIdeal.Gen

/-! ## The three products contract the last axis of both operands -/

/-- The gate's product, [32, 512] against [512, 512]: rows against rows. -/
theorem rows_gate : RowsDot.IsRowsByRows (M := 32) (K := 512) (N := 512) dot_S32x512_S512x512_S32x512_1_1_0_0_n_n where
  rank := rfl
  size := rfl
  lhs0 := fun i q => by
    unfold DotDims.lhsIdx
    rw [dif_neg (show ¬(0 : Fin S32x512.rank) ∈ dot_S32x512_S512x512_S32x512_1_1_0_0_n_n.lhsBatch by decide), dif_pos (show (0 : Fin S32x512.rank) ∈ dot_S32x512_S512x512_S32x512_1_1_0_0_n_n.lhsNonContracting by decide)]
    rfl
  lhs1 := fun i q => dot_S32x512_S512x512_S32x512_1_1_0_0_n_n.lhsIdx_val_of_single rfl i q
  rhs0 := fun i q => by
    unfold DotDims.rhsIdx
    rw [dif_neg (show ¬(0 : Fin S512x512.rank) ∈ dot_S32x512_S512x512_S32x512_1_1_0_0_n_n.rhsBatch by decide), dif_pos (show (0 : Fin S512x512.rank) ∈ dot_S32x512_S512x512_S32x512_1_1_0_0_n_n.rhsNonContracting by decide)]
    rfl
  rhs1 := fun i q => dot_S32x512_S512x512_S32x512_1_1_0_0_n_n.rhsIdx_val_of_single rfl i q

/-- The first projection's product, [1280, 1024] against [512, 1024]: rows against rows. -/
theorem rows_proj1 : RowsDot.IsRowsByRows (M := 1280) (K := 1024) (N := 512) dot_S1280x1024_S512x1024_S1280x512_1_1_0_0_n_n where
  rank := rfl
  size := rfl
  lhs0 := fun i q => by
    unfold DotDims.lhsIdx
    rw [dif_neg (show ¬(0 : Fin S1280x1024.rank) ∈ dot_S1280x1024_S512x1024_S1280x512_1_1_0_0_n_n.lhsBatch by decide), dif_pos (show (0 : Fin S1280x1024.rank) ∈ dot_S1280x1024_S512x1024_S1280x512_1_1_0_0_n_n.lhsNonContracting by decide)]
    rfl
  lhs1 := fun i q => dot_S1280x1024_S512x1024_S1280x512_1_1_0_0_n_n.lhsIdx_val_of_single rfl i q
  rhs0 := fun i q => by
    unfold DotDims.rhsIdx
    rw [dif_neg (show ¬(0 : Fin S512x1024.rank) ∈ dot_S1280x1024_S512x1024_S1280x512_1_1_0_0_n_n.rhsBatch by decide), dif_pos (show (0 : Fin S512x1024.rank) ∈ dot_S1280x1024_S512x1024_S1280x512_1_1_0_0_n_n.rhsNonContracting by decide)]
    rfl
  rhs1 := fun i q => dot_S1280x1024_S512x1024_S1280x512_1_1_0_0_n_n.rhsIdx_val_of_single rfl i q

/-- The second projection's product, [1280, 512] against [512, 512]: rows against rows. -/
theorem rows_proj2 : RowsDot.IsRowsByRows (M := 1280) (K := 512) (N := 512) dot_S1280x512_S512x512_S1280x512_1_1_0_0_n_n where
  rank := rfl
  size := rfl
  lhs0 := fun i q => by
    unfold DotDims.lhsIdx
    rw [dif_neg (show ¬(0 : Fin S1280x512.rank) ∈ dot_S1280x512_S512x512_S1280x512_1_1_0_0_n_n.lhsBatch by decide), dif_pos (show (0 : Fin S1280x512.rank) ∈ dot_S1280x512_S512x512_S1280x512_1_1_0_0_n_n.lhsNonContracting by decide)]
    rfl
  lhs1 := fun i q => dot_S1280x512_S512x512_S1280x512_1_1_0_0_n_n.lhsIdx_val_of_single rfl i q
  rhs0 := fun i q => by
    unfold DotDims.rhsIdx
    rw [dif_neg (show ¬(0 : Fin S512x512.rank) ∈ dot_S1280x512_S512x512_S1280x512_1_1_0_0_n_n.rhsBatch by decide), dif_pos (show (0 : Fin S512x512.rank) ∈ dot_S1280x512_S512x512_S1280x512_1_1_0_0_n_n.rhsNonContracting by decide)]
    rfl
  rhs1 := fun i q => dot_S1280x512_S512x512_S1280x512_1_1_0_0_n_n.rhsIdx_val_of_single rfl i q

/-! ## The gate block -/

/-- The gate block [32, 512]: the m block against the rows of W_m, plus the bias spread over the 32 entries. -/
def gateB (m : Vec Ideal S32x512 .f32) (Wm : Vec Ideal S512x512 .bf16) (bm : Vec Ideal S512 .f32) : FVec Ideal S32x512 .f32 :=
  have v4 : FVec Ideal S32x512 .bf16 := truncf .bf16 m bitsLt_bf16_f32
  have v6 : FVec Ideal S512x512 .bf16 := shapeCast S512x512 Wm shapeCasts_S512x512_S512x512
  have cst : FVec Ideal S32x512 .f32 := constant S32x512 .f32 0x00000000#32
  have v7 : FVec Ideal S32x512 .f32 := matmul dot_S32x512_S512x512_S32x512_1_1_0_0_n_n none v4 v6 cst
  have v9 : FVec Ideal S1x512 .f32 := shapeCast S1x512 bm shapeCasts_S512_S1x512
  have v10 : FVec Ideal S32x512 .f32 := broadcastTo S32x512 v9 broadcasts_S1x512_S32x512
  addf v7 v10

/-- A bias [512] recast as [1, 512] and spread over the rows reads its entry e at (r, e). -/
theorem biasRows_apply (b : FVec Ideal S512 .f32) (r : Fin 32) (e : Fin 512) :
    broadcastTo S32x512 (shapeCast S1x512 b shapeCasts_S512_S1x512) broadcasts_S1x512_S32x512 (ix2 r e) = b (ix1 e) := by
  refine (broadcastTo_apply (shapeCast S1x512 b shapeCasts_S512_S1x512) broadcasts_S1x512_S32x512 (ix2 r e) (ix2 (0 : Fin 1) e) fun ax => ?_).trans ?_
  · match ax with
    | ⟨0, _⟩ => rfl
    | ⟨1, _⟩ => rfl
  · refine shapeCast_apply b shapeCasts_S512_S1x512 _ (ix1 e) ?_
    rw [Shape.rowMajor_val_two, Shape.rowMajor_val_one]
    show e.val = 0 * 512 + e.val
    omega

/-- The gate block at (r, e) is the gate of entry r's row of m at e. -/
theorem gateB_apply (m : Vec Ideal S32x512 .f32) (Wm : Vec Ideal S512x512 .bf16) (bm : Vec Ideal S512 .f32) (r : Fin 32) (e : Fin 512) :
    gateB m Wm bm (ix2 r e)
      = Cert.RowSpec.gate (fun d => m (ix2 r d)) (fun e q => Wm (ix2 e q)) (fun e => bm (ix1 e)) e := by
  unfold Cert.RowSpec.gate
  show addf _ _ (ix2 r e) = _
  rw [addf_apply, biasRows_apply, shapeCast_self]
  refine congrArg (· + bm (ix1 e)) ?_
  exact RowsDot.matmul_zero_apply (φ₁ := .bf16) (φ₂ := .bf16) dot_S32x512_S512x512_S32x512_1_1_0_0_n_n rows_gate none m Wm r e

/-! ## Spreading rows, biases and per-position scalars over the block -/

/-- The position block's self recast is the block. -/
theorem pay3_eq (kb : Vec Ideal S32x40x512 .f32) : k0_pay3 (F := Ideal) kb = kb :=
  shapeCast_self kb shapeCasts_S32x40x512_S32x40x512

/-- A matrix [32, 512] recast as [32, 1, 512] and spread over the 40 positions reads (r, e) at (r, s, e). -/
theorem entryRows_apply (x : FVec Ideal S32x512 .f32) (r : Fin 32) (s : Fin 40) (e : Fin 512) :
    broadcastTo S32x40x512 (shapeCast S32x1x512 x shapeCasts_S32x512_S32x1x512) broadcasts_S32x1x512_S32x40x512 (ix3 r s e) = x (ix2 r e) :=
  (Rank3Layout.broadcastTo_a1c_abc_apply _ broadcasts_S32x1x512_S32x40x512 r s e).trans
    (MiddleUnit.shapeCast_ab_a1b_apply x shapeCasts_S32x512_S32x1x512 r 0 e)

/-- A bias [512] recast as [1, 1, 512] and spread over entries and positions reads its entry e at (r, s, e). -/
theorem biasCube_apply (b : FVec Ideal S512 .f32) (r : Fin 32) (s : Fin 40) (e : Fin 512) :
    broadcastTo S32x40x512 (shapeCast S1x1x512 b shapeCasts_S512_S1x1x512) broadcasts_S1x1x512_S32x40x512 (ix3 r s e) = b (ix1 e) :=
  (Rank3Layout.broadcastTo_11c_abc_apply _ broadcasts_S1x1x512_S32x40x512 r s e).trans
    (Rank3Layout.shapeCast_c_11c_apply b shapeCasts_S512_S1x1x512 0 0 e)

/-- A per-position scalar [32, 40] recast as [32, 40, 1] and spread over the lanes reads (r, s) at (r, s, d). -/
theorem lanes_apply (x : FVec Ideal S32x40 .f32) (r : Fin 32) (s : Fin 40) (d : Fin 512) :
    broadcastTo S32x40x512 (shapeCast S32x40x1 x shapeCasts_S32x40_S32x40x1) broadcasts_S32x40x1_S32x40x512 (ix3 r s d) = x (ix2 r s) :=
  (Rank3Layout.broadcastTo_ab1_abc_apply _ broadcasts_S32x40x1_S32x40x512 r s d).trans
    (Rank3Layout.shapeCast_ab_ab1_apply x shapeCasts_S32x40_S32x40x1 r s 0)

/-! ## The joined features -/

/-- The joined block [32, 40, 1024]: along the last axis, the gate times the shifted features, then the features. -/
def joinedB (g : FVec Ideal S32x512 .f32) (kb : Vec Ideal S32x40x512 .f32) (bk : Vec Ideal S512 .f32) : FVec Ideal S32x40x1024 .f32 :=
  have v12 : FVec Ideal S32x1x512 .f32 := shapeCast S32x1x512 g shapeCasts_S32x512_S32x1x512
  have v16 : FVec Ideal S1x1x512 .f32 := shapeCast S1x1x512 bk shapeCasts_S512_S1x1x512
  have v17 : FVec Ideal S32x40x512 .f32 := broadcastTo S32x40x512 v16 broadcasts_S1x1x512_S32x40x512
  have v18 : FVec Ideal S32x40x512 .f32 := addf (k0_pay3 kb) v17
  have v19 : FVec Ideal S32x40x512 .f32 := broadcastTo S32x40x512 v12 broadcasts_S32x1x512_S32x40x512
  have v20 : FVec Ideal S32x40x512 .f32 := mulf v19 v18
  concatenate S32x40x1024 2 [⟨S32x40x512, v20⟩, ⟨S32x40x512, k0_pay3 kb⟩] concatenates_S32x40x512_S32x40x512_S32x40x1024_d2

/-- The joined block at (r, s, j) is the joined feature j of position s of entry r. -/
theorem joinedB_apply (g : FVec Ideal S32x512 .f32) (kb : Vec Ideal S32x40x512 .f32) (bk : Vec Ideal S512 .f32)
    (r : Fin 32) (s : Fin 40) (j : Fin 1024) :
    joinedB g kb bk (ix3 r s j)
      = Cert.RowSpec.joined (fun e => g (ix2 r e)) (fun e => kb (ix3 r s e)) (fun e => bk (ix1 e)) j := by
  unfold Cert.RowSpec.joined
  by_cases h : j.val < 512
  · rw [dif_pos h]
    refine (concatenate_pair_apply_left (2 : Fin S32x40x1024.rank) _ _ concatenates_S32x40x512_S32x40x512_S32x40x1024_d2
      (ix3 r s j) rfl (ix3 r s (⟨j.val, h⟩ : Fin 512)) fun b => ?_).trans ?_
    · match b with
      | ⟨0, _⟩ => rfl
      | ⟨1, _⟩ => rfl
      | ⟨2, _⟩ => rfl
    · rw [mulf_apply, addf_apply, entryRows_apply, biasCube_apply, pay3_eq]
  · rw [dif_neg h]
    refine (concatenate_pair_apply_right (2 : Fin S32x40x1024.rank) _ _ concatenates_S32x40x512_S32x40x512_S32x40x1024_d2
      (ix3 r s j) rfl rfl (ix3 r s (⟨j.val - 512, by omega⟩ : Fin 512)) (fun b hb => ?_) ?_).trans ?_
    · match b with
      | ⟨0, _⟩ => rfl
      | ⟨1, _⟩ => rfl
      | ⟨2, _⟩ => exact absurd rfl hb
    · show (j.val - 512) + 512 = j.val
      omega
    · rw [pay3_eq]

/-! ## The scaled first projection -/

/-- The scaled block as a matrix [1280, 512]: the joined block's 1280 rows against the rows of W_2, plus the bias, scaled
    entrywise by the entry's row of c. -/
def scaledB (c : Vec Ideal S32x512 .f32) (u : FVec Ideal S32x40x1024 .f32) (W2 : Vec Ideal S512x1024 .bf16) (b1 : Vec Ideal S512 .f32) :
    FVec Ideal S1280x512 .bf16 :=
  have v22 : FVec Ideal S1280x1024 .f32 := shapeCast S1280x1024 u shapeCasts_S32x40x1024_S1280x1024
  have v23 : FVec Ideal S1280x1024 .bf16 := truncf .bf16 v22 bitsLt_bf16_f32
  have v25 : FVec Ideal S512x1024 .bf16 := shapeCast S512x1024 W2 shapeCasts_S512x1024_S512x1024
  have cst_11 : FVec Ideal S1280x512 .f32 := constant S1280x512 .f32 0x00000000#32
  have v26 : FVec Ideal S1280x512 .f32 := matmul dot_S1280x1024_S512x1024_S1280x512_1_1_0_0_n_n none v23 v25 cst_11
  have v27 : FVec Ideal S32x40x512 .f32 := shapeCast S32x40x512 v26 shapeCasts_S1280x512_S32x40x512
  have v29 : FVec Ideal S1x1x512 .f32 := shapeCast S1x1x512 b1 shapeCasts_S512_S1x1x512
  have v30 : FVec Ideal S32x40x512 .f32 := broadcastTo S32x40x512 v29 broadcasts_S1x1x512_S32x40x512
  have v31 : FVec Ideal S32x40x512 .f32 := addf v27 v30
  have v33 : FVec Ideal S32x1x512 .f32 := shapeCast S32x1x512 c shapeCasts_S32x512_S32x1x512
  have v34 : FVec Ideal S32x40x512 .f32 := broadcastTo S32x40x512 v33 broadcasts_S32x1x512_S32x40x512
  have v35 : FVec Ideal S32x40x512 .f32 := mulf v34 v31
  have v36 : FVec Ideal S1280x512 .f32 := shapeCast S1280x512 v35 shapeCasts_S32x40x512_S1280x512
  truncf .bf16 v36 bitsLt_bf16_f32

/-- The body's scaled matrix is the scaled block of the joined block of the gate block. -/
theorem pay4_eq (m : Vec Ideal S32x512 .f32) (Wm : Vec Ideal S512x512 .bf16) (bm : Vec Ideal S512 .f32) (kb : Vec Ideal S32x40x512 .f32)
    (bk : Vec Ideal S512 .f32) (W2 : Vec Ideal S512x1024 .bf16) (b1 : Vec Ideal S512 .f32) (c : Vec Ideal S32x512 .f32) :
    k0_pay4 (F := Ideal) m Wm bm kb bk W2 b1 c = scaledB c (joinedB (gateB m Wm bm) kb bk) W2 b1 := rfl

/-- The scaled matrix at row r·40 + s, column q, is the scaled first projection of position s of entry r at q. -/
theorem scaledB_apply (c : Vec Ideal S32x512 .f32) (u : FVec Ideal S32x40x1024 .f32) (W2 : Vec Ideal S512x1024 .bf16) (b1 : Vec Ideal S512 .f32)
    (r : Fin 32) (s : Fin 40) (q : Fin 512) (n : Fin 1280) (hn : n.val = r.val * 40 + s.val) :
    scaledB c u W2 b1 (ix2 n q)
      = Cert.RowSpec.scaled (fun e => c (ix2 r e)) (fun j => u (ix3 r s j)) (fun q j => W2 (ix2 q j)) (fun e => b1 (ix1 e)) q := by
  unfold Cert.RowSpec.scaled
  show shapeCast S1280x512 (mulf (F := Ideal) (φ := .f32) _ (addf (F := Ideal) (φ := .f32) _ _)) shapeCasts_S32x40x512_S1280x512 (ix2 n q) = _
  refine (Rank3Layout.shapeCast_abc_Nc_apply _ shapeCasts_S32x40x512_S1280x512 r s q n hn).trans ?_
  rw [mulf_apply, addf_apply, entryRows_apply, biasCube_apply]
  refine congrArg (fun t => c (ix2 r q) * (t + b1 (ix1 q))) ?_
  refine (Rank3Layout.shapeCast_Nc_abc_apply _ shapeCasts_S1280x512_S32x40x512 r s q n hn).trans ?_
  refine (RowsDot.matmul_zero_apply (φ₁ := .bf16) (φ₂ := .bf16) dot_S1280x1024_S512x1024_S1280x512_1_1_0_0_n_n rows_proj1 none _ _ n q).trans ?_
  refine Finset.sum_congr rfl fun j _ => ?_
  rw [shapeCast_self]
  refine congrArg (· * W2 (ix2 q j)) ?_
  exact Rank3Layout.shapeCast_abc_Nc_apply u shapeCasts_S32x40x1024_S1280x1024 r s j n hn

/-! ## The scores -/

/-- The scores block [32, 40, 512]: the scaled matrix's rows against the rows of W_d, plus the bias. -/
def scoresB (w : FVec Ideal S1280x512 .bf16) (Wd : Vec Ideal S512x512 .bf16) (b2 : Vec Ideal S512 .f32) : FVec Ideal S32x40x512 .f32 :=
  have v39 : FVec Ideal S512x512 .bf16 := shapeCast S512x512 Wd shapeCasts_S512x512_S512x512
  have cst_17 : FVec Ideal S1280x512 .f32 := constant S1280x512 .f32 0x00000000#32
  have v40 : FVec Ideal S1280x512 .f32 := matmul dot_S1280x512_S512x512_S1280x512_1_1_0_0_n_n none w v39 cst_17
  have v41 : FVec Ideal S32x40x512 .f32 := shapeCast S32x40x512 v40 shapeCasts_S1280x512_S32x40x512
  have v43 : FVec Ideal S1x1x512 .f32 := shapeCast S1x1x512 b2 shapeCasts_S512_S1x1x512
  have v44 : FVec Ideal S32x40x512 .f32 := broadcastTo S32x40x512 v43 broadcasts_S1x1x512_S32x40x512
  addf v41 v44

/-- The scores block at (r, s, d) is the score d of the matrix's row r·40 + s. -/
theorem scoresB_apply (w : FVec Ideal S1280x512 .bf16) (Wd : Vec Ideal S512x512 .bf16) (b2 : Vec Ideal S512 .f32)
    (r : Fin 32) (s : Fin 40) (d : Fin 512) (n : Fin 1280) (hn : n.val = r.val * 40 + s.val) :
    scoresB w Wd b2 (ix3 r s d)
      = Cert.RowSpec.scores (fun q => w (ix2 n q)) (fun d q => Wd (ix2 d q)) (fun e => b2 (ix1 e)) d := by
  unfold Cert.RowSpec.scores
  show addf (F := Ideal) (φ := .f32) _ _ (ix3 r s d) = _
  rw [addf_apply, biasCube_apply]
  refine congrArg (· + b2 (ix1 d)) ?_
  refine (Rank3Layout.shapeCast_Nc_abc_apply _ shapeCasts_S1280x512_S32x40x512 r s d n hn).trans ?_
  rw [shapeCast_self]
  exact RowsDot.matmul_zero_apply (φ₁ := .bf16) (φ₂ := .bf16) dot_S1280x512_S512x512_S1280x512_1_1_0_0_n_n rows_proj2 none w Wd n d

/-! ## The softmax weights and the weighted features -/

/-- The running maximum of each position's scores [32, 40], started from minus infinity. -/
def topB (a : FVec Ideal S32x40x512 .f32) : FVec Ideal S32x40 .f32 :=
  have v46 : FVec Ideal S32x40 .f32 := multiReduction .maximumf [2] S32x40 a 0xFF800000#32 reduces_S32x40x512_S32x40 (.inl rfl) rfl
  have cst_20 : Ideal .f32 := Scalar.ofBits .f32 0xFF800000#32
  have v47 : FVec Ideal S32x40 .f32 := broadcast S32x40 cst_20
  maximumf v47 v46

/-- The running maximum at (r, s) is the specification's maximum of position s of entry r. -/
theorem topB_apply (a : FVec Ideal S32x40x512 .f32) (r : Fin 32) (s : Fin 40) :
    topB a (ix2 r s) = Cert.RowSpec.top (fun e => a (ix3 r s e)) := by
  unfold Cert.RowSpec.top
  show maximumf (F := Ideal) (φ := .f32) _ _ (ix2 r s) = _
  rw [maximumf_apply, broadcast_apply]
  refine congrArg (max (Cert.RowSpec.negInf)) ?_
  refine (Ideal.multiReduction_maximumf_single a 0xFF800000#32 reduces_S32x40x512_S32x40 (.inl rfl) rfl (ix2 r s)).trans ?_
  have hf : (a ∘ reduces_S32x40x512_S32x40.lift (ix2 r s)) = fun e : Fin 512 => a (ix3 r s e) := by
    funext k
    refine congrArg a (funext fun d => Fin.ext ?_)
    rw [Shape.Reduces.lift_val]
    match d with
    | ⟨0, _⟩ => rfl
    | ⟨1, _⟩ => rfl
    | ⟨2, _⟩ => rfl
  rw [hf]
  rfl

/-- The exponentials of the scores less their position's maximum. -/
def expB (a : FVec Ideal S32x40x512 .f32) : FVec Ideal S32x40x512 .f32 :=
  have v49 : FVec Ideal S32x40x1 .f32 := shapeCast S32x40x1 (topB a) shapeCasts_S32x40_S32x40x1
  have v50 : FVec Ideal S32x40x512 .f32 := broadcastTo S32x40x512 v49 broadcasts_S32x40x1_S32x40x512
  have v51 : FVec Ideal S32x40x512 .f32 := subf a v50
  exp v51

theorem expB_apply (a : FVec Ideal S32x40x512 .f32) (r : Fin 32) (s : Fin 40) (d : Fin 512) :
    expB a (ix3 r s d) = Ideal.exp (a (ix3 r s d) - Cert.RowSpec.top (fun e => a (ix3 r s e))) := by
  show Ideal.exp (subf (F := Ideal) (φ := .f32) a _ (ix3 r s d)) = _
  rw [subf_apply, lanes_apply, topB_apply]

/-- The weighted features [32, 40, 512]: each exponential over its position's sum of exponentials, times the feature. -/
def weightedB (a k : FVec Ideal S32x40x512 .f32) : FVec Ideal S32x40x512 .f32 :=
  have v53 : FVec Ideal S32x40 .f32 := multiReduction .add [2] S32x40 (expB a) 0x00000000#32 reduces_S32x40x512_S32x40 (.inl rfl) rfl
  have v54 : FVec Ideal S32x40x1 .f32 := shapeCast S32x40x1 v53 shapeCasts_S32x40_S32x40x1
  have v55 : FVec Ideal S32x40x512 .f32 := broadcastTo S32x40x512 v54 broadcasts_S32x40x1_S32x40x512
  have v56 : FVec Ideal S32x40x512 .f32 := divf (expB a) v55
  mulf v56 k

/-- The weighted features at (r, s, d): the softmax weight of position s of entry r at d, times the feature there. -/
theorem weightedB_apply (a k : FVec Ideal S32x40x512 .f32) (r : Fin 32) (s : Fin 40) (d : Fin 512) :
    weightedB a k (ix3 r s d) = Cert.RowSpec.weight (fun e => a (ix3 r s e)) d * k (ix3 r s d) := by
  unfold Cert.RowSpec.weight
  show mulf (F := Ideal) (φ := .f32) (divf (F := Ideal) (φ := .f32) (expB a) _) k (ix3 r s d) = _
  rw [mulf_apply, divf_apply, lanes_apply, expB_apply]
  refine congrArg (fun t => Ideal.div (Ideal.exp (a (ix3 r s d) - Cert.RowSpec.top (fun e => a (ix3 r s e)))) t * k (ix3 r s d)) ?_
  refine (Rank3Layout.laneSum3_apply (expB a) reduces_S32x40x512_S32x40 (.inl rfl) rfl r s).trans ?_
  exact Finset.sum_congr rfl fun q _ => expB_apply a r s q

/-! ## The sum over the block's positions and the new accumulator -/

/-- A sum along the middle axis of the block, at the extended reals, read at (r, d): the sum over the 40 positions. -/
theorem midSum_apply (src : FVec Ideal S32x40x512 .f32) (r : Fin 32) (d : Fin 512) :
    multiReduction .add [1] S32x512 src 0x00000000#32 reduces_S32x40x512_S32x512 (.inl rfl) rfl (ix2 r d)
      = ∑ s : Fin 40, src (ix3 r s d) := by
  refine (Ideal.multiReduction_add_single src 0x00000000#32 reduces_S32x40x512_S32x512 (.inl rfl) rfl (ix2 r d)).trans ?_
  refine Finset.sum_congr rfl fun k _ => congrArg src (funext fun c => Fin.ext ?_)
  rw [Shape.Reduces.lift_val]
  match c with
  | ⟨0, _⟩ => rfl
  | ⟨1, _⟩ => rfl
  | ⟨2, _⟩ => rfl

/-- The body's new accumulator: the old one plus the sum over the positions of the weighted features. -/
theorem pay1_eq (k : FVec Ideal S32x40x512 .f32) (w : FVec Ideal S1280x512 .bf16) (Wd : Vec Ideal S512x512 .bf16) (b2 : Vec Ideal S512 .f32)
    (acc : Vec Ideal S32x512 .f32) :
    k0_pay1 (F := Ideal) k w Wd b2 acc
      = shapeCast S32x512 (addf acc (multiReduction .add [1] S32x512 (weightedB (scoresB w Wd b2) k) 0x00000000#32
          reduces_S32x40x512_S32x512 (.inl rfl) rfl)) shapeCasts_S32x512_S32x512 := rfl

/-- The new accumulator at (entry r, feature d): the old one plus, over the block's 40 positions, each position's term. -/
theorem tile_apply (c m : Vec Ideal S32x512 .f32) (kb : Vec Ideal S32x40x512 .f32) (Wm : Vec Ideal S512x512 .bf16) (bm bk : Vec Ideal S512 .f32)
    (W2 : Vec Ideal S512x1024 .bf16) (b1 : Vec Ideal S512 .f32) (Wd : Vec Ideal S512x512 .bf16) (b2 : Vec Ideal S512 .f32)
    (acc : Vec Ideal S32x512 .f32) (r : Fin 32) (d : Fin 512) :
    k0_pay1 (F := Ideal) (k0_pay3 kb) (k0_pay4 m Wm bm kb bk W2 b1 c) Wd b2 acc (ix2 r d)
      = acc (ix2 r d) + ∑ s : Fin 40,
          Cert.RowSpec.term (fun e => c (ix2 r e)) (fun e => m (ix2 r e)) (fun e => kb (ix3 r s e)) (fun e q => Wm (ix2 e q))
            (fun e => bm (ix1 e)) (fun e => bk (ix1 e)) (fun q j => W2 (ix2 q j)) (fun e => b1 (ix1 e)) (fun q k => Wd (ix2 q k))
            (fun e => b2 (ix1 e)) d := by
  rw [pay1_eq, pay4_eq, pay3_eq, shapeCast_self, addf_apply, midSum_apply]
  refine congrArg (acc (ix2 r d) + ·) (Finset.sum_congr rfl fun s _ => ?_)
  rw [weightedB_apply]
  unfold Cert.RowSpec.term Cert.RowSpec.scoresOf
  refine congrArg (fun a => Cert.RowSpec.weight a d * kb (ix3 r s d)) (funext fun e => ?_)
  rw [scoresB_apply _ Wd b2 r s e (⟨r.val * 40 + s.val, by omega⟩ : Fin 1280) rfl]
  refine congrArg (fun w => Cert.RowSpec.scores w (fun d q => Wd (ix2 d q)) (fun e => b2 (ix1 e)) e) (funext fun q => ?_)
  rw [scaledB_apply c _ W2 b1 r s q (⟨r.val * 40 + s.val, by omega⟩ : Fin 1280) rfl]
  refine congrArg (fun u => Cert.RowSpec.scaled (fun e => c (ix2 r e)) u (fun q j => W2 (ix2 q j)) (fun e => b1 (ix1 e)) q) (funext fun j => ?_)
  rw [joinedB_apply]
  exact congrArg (fun g => Cert.RowSpec.joined g (fun e => kb (ix3 r s e)) (fun e => bk (ix1 e)) j)
    (funext fun e' => gateB_apply m Wm bm r e')

end Cert.TileRead

end
-- ==== Proof.KernelResult.lean ====
/-
  The kernel's result. Every last point of a batch block writes back an output block that holds, at row r and feature
  d, the zero the running sum started from plus the double sum of the grid's contributions of batch entry 32 (t / 5) + r
  at d; the eight written blocks tile the result array, which therefore is that function of the arrays as launched.
-/
import proofs.«124386_j11630771437685_1_alg».proof.Proof.Accumulate
import proofs.«124386_j11630771437685_1_alg».proof.Proof.FinalArray
import proofs.«124386_j11630771437685_1_alg».proof.Proof.TileRead
import proofs.«124386_j11630771437685_1_alg».proof.Proof.Gen.KernelIdeal.Value

noncomputable section

namespace Cert.KernelIdeal.KernelResult

open Cert.KernelIdeal Cert.KernelIdeal.Gen Cert.KernelIdeal.Accumulate
open Idealize.ShloMosaic Idealize.ShloMosaic.TcCoe Idealize.SL.Sem Idealize.ShloMosaic.ValueIdx
open scoped BigOperators

variable (m : (ℓ : Loc nD τ sig) → Buf (Elt Ideal) ℓ) (ρ : Dev nD → PrngReg)

/-- The result array as a function of the arrays as launched: at (b, d) the sum over the 14 x 14 positions of batch
    entry b of the position's softmax weight at d times its feature at d, added to the zero the sum starts from. -/
def result (c : Dev nD) : S256x512.Idx → EReal :=
  fun i => Ideal.ofBits .f32 0x00000000#32 + ∑ h : Fin 14, ∑ w : Fin 14, gridContrib m c (i 0) h w (i 1)

/-- The result array after the run is that function. -/
theorem final (c : Dev nD) : (dats m 0 c).arrAt 10 cfg0.N = result m c :=
  Cert.KernelIdeal.FinalArray.final_array m c (result m c) fun t h1 r d b hb =>
    out_apply m Cert.TileRead.tile_apply c t h1 r d b hb

/-- The kernel's run with its result named: the result array at that function, the arguments unchanged. -/
theorem run : θ_run defs (onTc (τ := τ) (main (F := Ideal))) ⟨m, fun _ => 0, ρ⟩ fun r => ∀ c : Dev nD,
      r.2.mem ((c : Thread nD τ).loc main_v5) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final m c), (h c).2⟩) (Cert.KernelIdeal.Value.run_blocks m ρ)

end Cert.KernelIdeal.KernelResult

end
-- ==== Proof.RefRead.lean ====
/-
  The reference program read at an index.

  Each operation of the reference writes an array whose element at an index is an arithmetic expression of a few elements
  of its operands. Chaining these readings from the result back to the arguments gives, for one batch entry b and one
  feature d, the result as the zero literal plus the sum over the 14 x 14 positions (h, w) of one position's contribution,
  and that contribution is the one the row specification states:

    * the gate of entry b (a product of the entry's row with a matrix, plus a bias), shared by all positions;
    * the 1024 joined features of position (b, h, w): the gated shifted features followed by the features themselves
      (the concatenation along the last axis, read on either side of coordinate 512);
    * two further products with matrices, the first scaled entrywise, giving the scores of the position;
    * the softmax of the scores along the last axis, written as the exponential of the score minus the running maximum
      (started from minus infinity) over the sum of those exponentials (started from the zero literal, which is the
      extended real 0);
    * the softmax weight times the position's feature, summed over the two middle axes.
-/
import proofs.«124386_j11630771437685_1_alg».proof.Proof.Gen.ReferenceIdeal.Read
import proofs.«124386_j11630771437685_1_alg».proof.Proof.RowSpec
import Idealize.ShloMosaic.Lib.Pipeline.Value
import Idealize.ShloMosaic.Lib.ValueIdx
import Idealize.ShloMosaic.PureOps.Ideal.Laws
import Idealize.ShloMosaic.PureOps.Reduce

noncomputable section

namespace Cert.RefRead

open Idealize.ShloMosaic Idealize.ShloMosaic.ValueIdx Cert.ReferenceIdeal Cert.ReferenceIdeal.Gen Cert.ReferenceIdeal.Read

variable (x0 x1 : (⟨S256x512, .f32⟩ : BufTy).Contents (Elt Ideal))
  (x2 : (⟨S256x14x14x512, .f32⟩ : BufTy).Contents (Elt Ideal))
  (x3 : (⟨S512x512, .f32⟩ : BufTy).Contents (Elt Ideal))
  (x4 x6 : (⟨S512, .f32⟩ : BufTy).Contents (Elt Ideal))
  (x7 : (⟨S512x1024, .f32⟩ : BufTy).Contents (Elt Ideal))
  (x8 : (⟨S512, .f32⟩ : BufTy).Contents (Elt Ideal))
  (x9 : (⟨S512x512, .f32⟩ : BufTy).Contents (Elt Ideal))
  (x10 : (⟨S512, .f32⟩ : BufTy).Contents (Elt Ideal))

/-! ### The gate of a batch entry -/

/-- The first product plus its bias, at (b, e), is the gate of entry b at e. -/
theorem gate_read (b : Fin 256) (e : Fin 512) :
    val_main_v3 (F := Ideal) x1 x3 x4 (ix2 b e)
      = Cert.RowSpec.gate (fun d => x1 (ix2 b d)) (fun e q => x3 (ix2 e q)) (fun e => x4 (ix1 e)) e := by
  rw [val_main_v3_apply, val_main_v0_apply, val_main_v2_apply, val_main_v1_apply]
  unfold Cert.RowSpec.gate
  have hl : ∀ k : Fin 512, lidx_main_v0 (ix2 b e) k = ix2 b k := fun k =>
    funext fun a => match a with | ⟨0, _⟩ => rfl | ⟨1, _⟩ => rfl
  have hr : ∀ k : Fin 512, ridx_main_v0 (ix2 b e) k = ix2 e k := fun k =>
    funext fun a => match a with | ⟨0, _⟩ => rfl | ⟨1, _⟩ => rfl
  have hb : idx_main_v1 (idx_main_v2 (ix2 b e)) = ix1 e :=
    funext fun a => match a with | ⟨0, _⟩ => rfl
  rw [hb]
  show (∑ k : Fin 512, x1 (lidx_main_v0 (ix2 b e) k) * x3 (ridx_main_v0 (ix2 b e) k)) + x4 (ix1 e) = _
  refine congrArg (· + x4 (ix1 e)) (Finset.sum_congr rfl fun k _ => ?_)
  rw [hl k, hr k]

/-! ### The joined features of a position -/

/-- The gated shifted features at (b, h, w, e): the gate of entry b at e times the shifted feature. -/
theorem gated_read (b : Fin 256) (h w : Fin 14) (e : Fin 512) :
    val_main_v9 (F := Ideal) x1 x2 x3 x4 x6 (ix4 b h w e)
      = (Cert.RowSpec.gate (fun d => x1 (ix2 b d)) (fun e q => x3 (ix2 e q)) (fun e => x4 (ix1 e))) e * (x2 (ix4 b h w e) + x6 (ix1 e)) := by
  rw [val_main_v9_apply, val_main_v8_apply, val_main_v4_apply, val_main_v7_apply, val_main_v6_apply, val_main_v5_apply]
  have h8 : idx_main_v4 (idx_main_v8 (ix4 b h w e)) = ix2 b e :=
    funext fun a => match a with | ⟨0, _⟩ => rfl | ⟨1, _⟩ => rfl
  have h6 : idx_main_v5 (idx_main_v6 (ix4 b h w e)) = ix1 e :=
    funext fun a => match a with | ⟨0, _⟩ => rfl
  rw [h8, h6, gate_read]
  exact rfl

/-- The concatenation along the last axis at (b, h, w, j): below 512 the gated shifted features, from 512 on the
    features themselves. -/
theorem joined_read (b : Fin 256) (h w : Fin 14) (j : Fin 1024) :
    val_main_v10 (F := Ideal) x1 x2 x3 x4 x6 (ix4 b h w j) = (Cert.RowSpec.joined (Cert.RowSpec.gate (fun d => x1 (ix2 b d)) (fun e q => x3 (ix2 e q)) (fun e => x4 (ix1 e))) (fun e => x2 (ix4 b h w e)) (fun e => x6 (ix1 e))) j := by
  unfold val_main_v10 Cert.RowSpec.joined
  by_cases hj : j.val < 512
  · rw [dif_pos hj]
    refine (concatenate_pair_apply_left _ _ _ concatenates_S256x14x14x512_S256x14x14x512_S256x14x14x1024_d3
      (ix4 b h w j) rfl (ix4 b h w (⟨j.val, hj⟩ : Fin 512)) ?_).trans ?_
    · intro c
      match c with
      | ⟨0, _⟩ => rfl
      | ⟨1, _⟩ => rfl
      | ⟨2, _⟩ => rfl
      | ⟨3, _⟩ => rfl
    · exact gated_read x1 x2 x3 x4 x6 b h w ⟨j.val, hj⟩
  · rw [dif_neg hj]
    have hlt : j.val - 512 < 512 := by have := j.isLt; omega
    refine (concatenate_pair_apply_right _ _ _ concatenates_S256x14x14x512_S256x14x14x512_S256x14x14x1024_d3
      (ix4 b h w j) rfl rfl (ix4 b h w (⟨j.val - 512, hlt⟩ : Fin 512)) ?_ ?_).trans rfl
    · intro c
      match c with
      | ⟨0, _⟩ => exact fun _ => rfl
      | ⟨1, _⟩ => exact fun _ => rfl
      | ⟨2, _⟩ => exact fun _ => rfl
      | ⟨3, _⟩ => exact fun hne => absurd rfl hne
    · show j.val - 512 + 512 = j.val
      omega

/-! ### The scores of a position -/

/-- The first projection of the joined features plus its bias, scaled by the entry's row, at (b, h, w, q). -/
theorem scaled_read (b : Fin 256) (h w : Fin 14) (q : Fin 512) :
    val_main_v17 (F := Ideal) x0 x1 x2 x3 x4 x6 x7 x8 (ix4 b h w q)
      = Cert.RowSpec.scaled (fun e => x0 (ix2 b e)) (Cert.RowSpec.joined (Cert.RowSpec.gate (fun d => x1 (ix2 b d)) (fun e q => x3 (ix2 e q)) (fun e => x4 (ix1 e))) (fun e => x2 (ix4 b h w e)) (fun e => x6 (ix1 e))) (fun q j => x7 (ix2 q j)) (fun e => x8 (ix1 e)) q := by
  rw [val_main_v17_apply, val_main_v16_apply, val_main_v15_apply, val_main_v14_apply, val_main_v11_apply,
    val_main_v13_apply, val_main_v12_apply]
  unfold Cert.RowSpec.scaled
  have h16 : idx_main_v15 (idx_main_v16 (ix4 b h w q)) = ix2 b q :=
    funext fun a => match a with | ⟨0, _⟩ => rfl | ⟨1, _⟩ => rfl
  have h13 : idx_main_v12 (idx_main_v13 (ix4 b h w q)) = ix1 q :=
    funext fun a => match a with | ⟨0, _⟩ => rfl
  have hl : ∀ k : Fin 1024, lidx_main_v11 (ix4 b h w q) k = ix4 b h w k := fun k =>
    funext fun a => match a with | ⟨0, _⟩ => rfl | ⟨1, _⟩ => rfl | ⟨2, _⟩ => rfl | ⟨3, _⟩ => rfl
  have hr : ∀ k : Fin 1024, ridx_main_v11 (ix4 b h w q) k = ix2 q k := fun k =>
    funext fun a => match a with | ⟨0, _⟩ => rfl | ⟨1, _⟩ => rfl
  rw [h16, h13]
  show x0 (ix2 b q) * ((∑ k : Fin 1024, val_main_v10 (F := Ideal) x1 x2 x3 x4 x6 (lidx_main_v11 (ix4 b h w q) k)
    * x7 (ridx_main_v11 (ix4 b h w q) k)) + x8 (ix1 q)) = _
  refine congrArg (fun s => x0 (ix2 b q) * (s + x8 (ix1 q))) (Finset.sum_congr rfl fun k _ => ?_)
  rw [hl k, hr k, joined_read]

/-- The second projection plus its bias at (b, h, w, d): the scores of the position. -/
theorem scores_read (b : Fin 256) (h w : Fin 14) (d : Fin 512) :
    val_main_v21 (F := Ideal) x0 x1 x2 x3 x4 x6 x7 x8 x9 x10 (ix4 b h w d)
      = Cert.RowSpec.scoresOf (fun e => x0 (ix2 b e)) (fun e => x1 (ix2 b e)) (fun e => x2 (ix4 b h w e)) (fun e q => x3 (ix2 e q)) (fun e => x4 (ix1 e)) (fun e => x6 (ix1 e)) (fun q j => x7 (ix2 q j)) (fun e => x8 (ix1 e)) (fun q k => x9 (ix2 q k)) (fun e => x10 (ix1 e)) d := by
  rw [val_main_v21_apply, val_main_v18_apply, val_main_v20_apply, val_main_v19_apply]
  unfold Cert.RowSpec.scoresOf Cert.RowSpec.scores
  have h20 : idx_main_v19 (idx_main_v20 (ix4 b h w d)) = ix1 d :=
    funext fun a => match a with | ⟨0, _⟩ => rfl
  have hl : ∀ k : Fin 512, lidx_main_v18 (ix4 b h w d) k = ix4 b h w k := fun k =>
    funext fun a => match a with | ⟨0, _⟩ => rfl | ⟨1, _⟩ => rfl | ⟨2, _⟩ => rfl | ⟨3, _⟩ => rfl
  have hr : ∀ k : Fin 512, ridx_main_v18 (ix4 b h w d) k = ix2 d k := fun k =>
    funext fun a => match a with | ⟨0, _⟩ => rfl | ⟨1, _⟩ => rfl
  rw [h20]
  show (∑ k : Fin 512, val_main_v17 (F := Ideal) x0 x1 x2 x3 x4 x6 x7 x8 (lidx_main_v18 (ix4 b h w d) k)
    * x9 (ridx_main_v18 (ix4 b h w d) k)) + x10 (ix1 d) = _
  refine congrArg (· + x10 (ix1 d)) (Finset.sum_congr rfl fun k _ => ?_)
  rw [hl k, hr k, scaled_read]

/-! ### The softmax weight of a position -/

/-- The reduced index (b, h, w) with coordinate k put back on the last axis is (b, h, w, k). -/
theorem lift_last (hR : S256x14x14x512.Reduces [3] S256x14x14) (b : Fin 256) (h w : Fin 14)
    (k : Fin (S256x14x14x512.size 3)) : hR.lift (ix3 b h w) k = ix4 b h w (⟨k.val, k.isLt⟩ : Fin 512) := by
  funext c; apply Fin.ext
  fin_cases c <;> rfl

/-- The running maximum along the last axis, started from minus infinity and compared once more with minus infinity,
    at (b, h, w): the top of the position's scores. -/
theorem top_read (b : Fin 256) (h w : Fin 14) :
    val_main_v24 (F := Ideal) x0 x1 x2 x3 x4 x6 x7 x8 x9 x10 (ix3 b h w)
      = Cert.RowSpec.top (Cert.RowSpec.scoresOf (fun e => x0 (ix2 b e)) (fun e => x1 (ix2 b e)) (fun e => x2 (ix4 b h w e)) (fun e q => x3 (ix2 e q)) (fun e => x4 (ix1 e)) (fun e => x6 (ix1 e)) (fun q j => x7 (ix2 q j)) (fun e => x8 (ix1 e)) (fun q k => x9 (ix2 q k)) (fun e => x10 (ix1 e))) := by
  rw [val_main_v24_apply, val_main_v23_apply, val_main_cst_0_apply]
  unfold Cert.RowSpec.top val_main_v22
  have hR : S256x14x14x512.Reduces [3] S256x14x14 := by decide
  rw [Host.reduce_eq_fold_single FloatOps.maximumf _ _ reducesTo_S256x14x14x512_S256x14x14_d3 hR h_S_]
  have hf : (val_main_v21 (F := Ideal) x0 x1 x2 x3 x4 x6 x7 x8 x9 x10 ∘ hR.lift (ix3 b h w))
      = fun k : Fin 512 => Cert.RowSpec.scoresOf (fun e => x0 (ix2 b e)) (fun e => x1 (ix2 b e)) (fun e => x2 (ix4 b h w e)) (fun e q => x3 (ix2 e q)) (fun e => x4 (ix1 e)) (fun e => x6 (ix1 e)) (fun q j => x7 (ix2 q j)) (fun e => x8 (ix1 e)) (fun q k => x9 (ix2 q k)) (fun e => x10 (ix1 e)) k := funext fun k => by
    show val_main_v21 (F := Ideal) x0 x1 x2 x3 x4 x6 x7 x8 x9 x10 (hR.lift (ix3 b h w) k) = _
    rw [lift_last hR b h w k]
    exact scores_read x0 x1 x2 x3 x4 x6 x7 x8 x9 x10 b h w ⟨k.val, k.isLt⟩
  exact congrArg (fun f => max Cert.RowSpec.negInf
    (Finset.fold max Cert.RowSpec.negInf f (Finset.univ : Finset (Fin 512)))) hf

/-- The exponential of the score minus the top, at (b, h, w, d). -/
theorem exp_read (b : Fin 256) (h w : Fin 14) (d : Fin 512) :
    val_main_v28 (F := Ideal) x0 x1 x2 x3 x4 x6 x7 x8 x9 x10 (ix4 b h w d)
      = Ideal.exp (Cert.RowSpec.scoresOf (fun e => x0 (ix2 b e)) (fun e => x1 (ix2 b e)) (fun e => x2 (ix4 b h w e)) (fun e q => x3 (ix2 e q)) (fun e => x4 (ix1 e)) (fun e => x6 (ix1 e)) (fun q j => x7 (ix2 q j)) (fun e => x8 (ix1 e)) (fun q k => x9 (ix2 q k)) (fun e => x10 (ix1 e)) d
          - Cert.RowSpec.top (Cert.RowSpec.scoresOf (fun e => x0 (ix2 b e)) (fun e => x1 (ix2 b e)) (fun e => x2 (ix4 b h w e)) (fun e q => x3 (ix2 e q)) (fun e => x4 (ix1 e)) (fun e => x6 (ix1 e)) (fun q j => x7 (ix2 q j)) (fun e => x8 (ix1 e)) (fun q k => x9 (ix2 q k)) (fun e => x10 (ix1 e)))) := by
  rw [val_main_v28_apply, val_main_v27_apply, val_main_v26_apply, val_main_v25_apply]
  have h26 : idx_main_v25 (idx_main_v26 (ix4 b h w d)) = ix3 b h w :=
    funext fun a => match a with | ⟨0, _⟩ => rfl | ⟨1, _⟩ => rfl | ⟨2, _⟩ => rfl
  rw [h26, top_read, scores_read]
  exact rfl

/-- The softmax weight times the position's feature, at (b, h, w, d): the position's contribution. -/
theorem term_read (b : Fin 256) (h w : Fin 14) (d : Fin 512) :
    val_main_v33 (F := Ideal) x0 x1 x2 x3 x4 x6 x7 x8 x9 x10 (ix4 b h w d)
      = Cert.RowSpec.term (fun e => x0 (ix2 b e)) (fun e => x1 (ix2 b e)) (fun e => x2 (ix4 b h w e)) (fun e q => x3 (ix2 e q)) (fun e => x4 (ix1 e)) (fun e => x6 (ix1 e)) (fun q j => x7 (ix2 q j)) (fun e => x8 (ix1 e)) (fun q k => x9 (ix2 q k)) (fun e => x10 (ix1 e)) d := by
  rw [val_main_v33_apply, val_main_v32_apply, val_main_v31_apply, val_main_v30_apply, val_main_v29_apply,
    val_main_cst_1_apply]
  unfold Cert.RowSpec.term Cert.RowSpec.weight
  have h31 : idx_main_v30 (idx_main_v31 (ix4 b h w d)) = ix3 b h w :=
    funext fun a => match a with | ⟨0, _⟩ => rfl | ⟨1, _⟩ => rfl | ⟨2, _⟩ => rfl
  have h29 : ∀ k : Fin 512, idx_main_v29 (ix3 b h w) k = ix4 b h w k := fun k =>
    funext fun a => match a with | ⟨0, _⟩ => rfl | ⟨1, _⟩ => rfl | ⟨2, _⟩ => rfl | ⟨3, _⟩ => rfl
  rw [h31, exp_read]
  have hs : (∑ k : Fin 512, val_main_v28 (F := Ideal) x0 x1 x2 x3 x4 x6 x7 x8 x9 x10 (idx_main_v29 (ix3 b h w) k))
      = ∑ q : Fin 512, Ideal.exp (Cert.RowSpec.scoresOf (fun e => x0 (ix2 b e)) (fun e => x1 (ix2 b e)) (fun e => x2 (ix4 b h w e)) (fun e q => x3 (ix2 e q)) (fun e => x4 (ix1 e)) (fun e => x6 (ix1 e)) (fun q j => x7 (ix2 q j)) (fun e => x8 (ix1 e)) (fun q k => x9 (ix2 q k)) (fun e => x10 (ix1 e)) q
          - Cert.RowSpec.top (Cert.RowSpec.scoresOf (fun e => x0 (ix2 b e)) (fun e => x1 (ix2 b e)) (fun e => x2 (ix4 b h w e)) (fun e q => x3 (ix2 e q)) (fun e => x4 (ix1 e)) (fun e => x6 (ix1 e)) (fun q j => x7 (ix2 q j)) (fun e => x8 (ix1 e)) (fun q k => x9 (ix2 q k)) (fun e => x10 (ix1 e)))) :=
    Finset.sum_congr rfl fun k _ => by rw [h29 k, exp_read]
  rw [hs]
  show Ideal.div _ (Ideal.ofBits .f32 0x00000000#32 + _) * _ = _
  rw [Ideal.ofBits_zero_f32, zero_add]

/-! ### The sum over the two middle axes -/

/-- Summing over the indices of a [256, 14, 14, 512] array whose first and last coordinates are b and d is summing over
    the two middle coordinates. -/
theorem sum_middle (hR : S256x14x14x512.ReducesTo [1, 2] S256x512) (y : S256x14x14x512.Idx → EReal)
    (b : Fin 256) (d : Fin 512) :
    ∑ i ∈ Finset.univ.filter (fun i => hR.drop i = ix2 b d), y i
      = ∑ h : Fin 14, ∑ w : Fin 14, y (ix4 b h w d) := by
  refine Eq.trans ?_ (Finset.sum_product' Finset.univ Finset.univ (fun (h w : Fin 14) => y (ix4 b h w d)))
  have hdrop : ∀ (h w : Fin 14), hR.drop (ix4 b h w d) = ix2 b d := fun h w =>
    funext fun c => Fin.ext (by
      match c with
      | ⟨0, _⟩ => exact hR.drop_apply_val_of_eq (ix4 b h w d) ⟨0, by decide⟩ 0
      | ⟨1, _⟩ => exact hR.drop_apply_val_of_eq (ix4 b h w d) ⟨1, by decide⟩ 3)
  have hback : ∀ i : S256x14x14x512.Idx, hR.drop i = ix2 b d → ix4 b (i 1 : Fin 14) (i 2 : Fin 14) d = i := by
    intro i hi
    have h0 : (i 0).val = b.val :=
      (hR.drop_apply_val_of_eq i ⟨0, by decide⟩ 0).symm.trans (congrArg (fun j : S256x512.Idx => (j 0).val) hi)
    have h3 : (i 3).val = d.val :=
      (hR.drop_apply_val_of_eq i ⟨1, by decide⟩ 3).symm.trans (congrArg (fun j : S256x512.Idx => (j 1).val) hi)
    funext c
    match c with
    | ⟨0, _⟩ => exact Fin.ext h0.symm
    | ⟨1, _⟩ => rfl
    | ⟨2, _⟩ => rfl
    | ⟨3, _⟩ => exact Fin.ext h3.symm
  refine Finset.sum_nbij' (fun i => ((i 1 : Fin 14), (i 2 : Fin 14))) (fun p => ix4 b p.1 p.2 d) ?_ ?_ ?_ ?_ ?_
  · intro i _; exact Finset.mem_product.2 ⟨Finset.mem_univ _, Finset.mem_univ _⟩
  · intro p _; exact Finset.mem_filter.2 ⟨Finset.mem_univ _, hdrop p.1 p.2⟩
  · intro i hi; exact hback i (Finset.mem_filter.1 hi).2
  · intro p _; rfl
  · intro i hi; exact congrArg y (hback i (Finset.mem_filter.1 hi).2).symm

/-! ### The result -/

/-- The reference's result at (b, d): the zero literal plus the sum over the 14 x 14 positions of the position's
    contribution at d. -/
theorem result_apply (b : Fin 256) (d : Fin 512) :
    val_main_v34 (F := Ideal) x0 x1 x2 x3 x4 x6 x7 x8 x9 x10 (ix2 b d)
      = Ideal.ofBits .f32 0x00000000#32 + ∑ h : Fin 14, ∑ w : Fin 14,
          Cert.RowSpec.term (fun e => x0 (ix2 b e)) (fun e => x1 (ix2 b e)) (fun e => x2 (ix4 b h w e)) (fun e q => x3 (ix2 e q)) (fun e => x4 (ix1 e)) (fun e => x6 (ix1 e)) (fun q j => x7 (ix2 q j)) (fun e => x8 (ix1 e)) (fun q k => x9 (ix2 q k)) (fun e => x10 (ix1 e)) d := by
  unfold val_main_v34
  simp only [Host.reduceAdd, Ideal.hostReduceAdd_def]
  unfold Ideal.hostReduceAdd
  rw [sum_middle]
  refine congrArg (Ideal.ofBits .f32 0x00000000#32 + ·) (Finset.sum_congr rfl fun h _ => Finset.sum_congr rfl fun w _ => ?_)
  exact term_read x0 x1 x2 x3 x4 x6 x7 x8 x9 x10 b h w d

end Cert.RefRead

end
-- ==== Proof.lean ====
/-
  The proof of the certificate's claim. Both idealized programs compute, for every batch entry b and feature d, the sum
  over the 14 x 14 spatial positions of (softmax over the features of the position's scores) at d times the position's
  feature at d, where a position's scores are two affine maps of its gated, joined features (Proof/RowSpec.lean). The
  reference does it in one pass over [256, 14, 14, 512]. The kernel lists the positions as 196, pads them with four
  zero positions to 200, and walks an 8 x 5 grid: batch blocks of 32 entries by tiles of 40 positions, keeping a running
  sum in a scratch block that is zeroed at a batch block's first tile and copied out at its last. On the extended reals a
  product with zero is zero and finite sums may be regrouped freely, so the padding positions contribute nothing and the
  five tile sums add up to the reference's double sum; no finiteness of the inputs is needed for that, and the
  precondition is not opened. The frames of the two kernel programs are the generated ones, the reference's frame is its
  generated run with the result dropped, and the ideal pass rewrote nothing.
-/
import proofs.«124386_j11630771437685_1_alg».proof.Defs
import proofs.«124386_j11630771437685_1_alg».proof.Proof.Gen.Kernel
import proofs.«124386_j11630771437685_1_alg».proof.Proof.Gen.Kernel.Skeleton
import proofs.«124386_j11630771437685_1_alg».proof.Proof.Gen.Kernel.Launch
import proofs.«124386_j11630771437685_1_alg».proof.Proof.Gen.Kernel.Points
import proofs.«124386_j11630771437685_1_alg».proof.Proof.Gen.Kernel.Frame
import proofs.«124386_j11630771437685_1_alg».proof.Proof.Gen.KernelIdeal
import proofs.«124386_j11630771437685_1_alg».proof.Proof.Gen.KernelIdeal.Skeleton
import proofs.«124386_j11630771437685_1_alg».proof.Proof.Gen.KernelIdeal.Launch
import proofs.«124386_j11630771437685_1_alg».proof.Proof.Gen.KernelIdeal.Points
import proofs.«124386_j11630771437685_1_alg».proof.Proof.Gen.KernelIdeal.Frame
import proofs.«124386_j11630771437685_1_alg».proof.Proof.Gen.ReferenceIdeal
import proofs.«124386_j11630771437685_1_alg».proof.Proof.Gen.Pre_finite_inputs
import proofs.«124386_j11630771437685_1_alg».proof.Proof.Gen.KernelIdeal.Value
import proofs.«124386_j11630771437685_1_alg».proof.Proof.Gen.ReferenceIdeal.Run
import proofs.«124386_j11630771437685_1_alg».proof.Proof.Gen.ReferenceIdeal.Read
import proofs.«124386_j11630771437685_1_alg».proof.Proof.KernelResult
import proofs.«124386_j11630771437685_1_alg».proof.Proof.RefRead
import Idealize.ShloMosaic.Adequacy
import Idealize.ShloMosaic.Init

noncomputable section

namespace Cert.Proof

open Idealize.ShloMosaic Idealize.SL.Sem Idealize.ShloMosaic.ValueIdx

/-- The word-level kernel runs and leaves its arguments unchanged: the generated frame. -/
theorem frame_kernel : Cert.frame_Kernel (hKernel := Cert.Kernel.Gen.facts) (hPre_finite_inputs := Cert.Pre_finite_inputs.Gen.facts) :=
  fun m ρ _ => Cert.Kernel.Gen.frame m ρ

/-- The idealized kernel likewise. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference's frame is its generated run with the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Run from memories that agree on the arguments, the idealized kernel ends with its result array at the double sum over
    the grid (Proof/KernelResult.lean) and the reference with its result at the same double sum of the same arguments
    (Proof/RefRead.lean), index by index. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.KernelResult.result m c, Cert.KernelIdeal.KernelResult.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10⟩ := hagree c
  rw [Cert.ReferenceIdeal.Read.val_main_v34_eq, a0, a1, a2, a3, a4, a6, a7, a8, a9, a10]
  funext i
  obtain ⟨b, d, rfl⟩ : ∃ (b : Fin 256) (d : Fin 512), i = ix2 b d := ⟨i 0, i 1, eq_ix2 i⟩
  exact Cert.RefRead.result_apply _ _ _ _ _ _ _ _ _ _ b d

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
